-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S256x128 .f32) (main_arg10 : FVec F S128 .f32) (main_arg11 : FVec F S256x128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  main_v48

def fn_part1 {F : FTy → Type} [FloatOps F] (main_arg6 : FVec F S128x256 .f32) (main_arg7 : FVec F S256 .f32) (main_arg8 : FVec F S128x256 .f32) (main_arg9 : FVec F S256x128 .f32) (main_arg10 : FVec F S128 .f32) (main_arg11 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x256 .f32) (main_arg7 : FVec F S256 .f32) (main_arg8 : FVec F S128x256 .f32) (main_arg9 : FVec F S256x128 .f32) (main_arg10 : FVec F S128 .f32) (main_arg11 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S1x256 : Shape := ⟨2, ![1, 256]⟩
abbrev S50000x256 : Shape := ⟨2, ![50000, 256]⟩
abbrev S2000x256 : Shape := ⟨2, ![2000, 256]⟩
abbrev S800000x256 : Shape := ⟨2, ![800000, 256]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 77
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S1x128, .f32⟩
  | .hbm, ⟨60, _⟩ => ⟨S50000x128, .f32⟩
  | .hbm, ⟨61, _⟩ => ⟨S_, .f32⟩
  | .hbm, ⟨62, _⟩ => ⟨S64x128, .f32⟩
  | .hbm, ⟨63, _⟩ => ⟨S50000x1, .i32⟩
  | .hbm, ⟨64, _⟩ => ⟨S64x128, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S64, .f32⟩
  | .hbm, ⟨69, _⟩ => ⟨S50000x1, .i32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64x1, .f32⟩
  | .hbm, ⟨75, _⟩ => ⟨S64x128, .f32⟩
  | .hbm, ⟨76, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S800000x256 : Shape := ⟨2, ![800000, 256]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x256, .f32⟩
  | 7 => ⟨S256, .f32⟩
  | 8 => ⟨S128x256, .f32⟩
  | 9 => ⟨S256x128, .f32⟩
  | 10 => ⟨S128, .f32⟩
  | 11 => ⟨S256x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .i1⟩
  | 38 => ⟨S_, .f32⟩
  | 39 => ⟨S50000x128, .f32⟩
  | 40 => ⟨S50000x128, .i1⟩
  | 41 => ⟨S_, .f32⟩
  | 42 => ⟨S_, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S1x800000, .i32⟩
  | 51 => ⟨S800000, .i32⟩
  | 52 => ⟨S1x800000, .i32⟩
  | 53 => ⟨S800000, .i32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x256, .f32⟩
  | 68 => ⟨S1x256, .f32⟩
  | 69 => ⟨S50000x256, .f32⟩
  | 70 => ⟨S50000x256, .f32⟩
  | 71 => ⟨S50000x256, .f32⟩
  | 72 => ⟨S50000x256, .f32⟩
  | 73 => ⟨S_, .f32⟩
  | 74 => ⟨S50000x256, .f32⟩
  | 75 => ⟨S50000x256, .i1⟩
  | 76 => ⟨S_, .f32⟩
  | 77 => ⟨S50000x256, .f32⟩
  | 78 => ⟨S50000x256, .i1⟩
  | 79 => ⟨S_, .f32⟩
  | 80 => ⟨S_, .f32⟩
  | 81 => ⟨S50000x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x256, .f32⟩
  | 88 => ⟨S1x800000, .i32⟩
  | 89 => ⟨S800000, .i32⟩
  | 90 => ⟨S1x800000, .i32⟩
  | 91 => ⟨S800000, .i32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000x128, .f32⟩
  | 106 => ⟨S1x128, .f32⟩
  | 107 => ⟨S50000x128, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .i1⟩
  | 114 => ⟨S_, .f32⟩
  | 115 => ⟨S50000x128, .f32⟩
  | 116 => ⟨S50000x128, .i1⟩
  | 117 => ⟨S_, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S_, .f32⟩
  | 127 => ⟨S64x128, .f32⟩
  | _ => ⟨S50000x128, .f32⟩

abbrev hbmTy0_1 (i : Nat) : BufTy := match i % 128 with
  | 0 => ⟨S50000x1, .i32⟩
  | 1 => ⟨S64x128, .f32⟩
  | 2 => ⟨S_, .f32⟩
  | 3 => ⟨S50000, .f32⟩
  | 4 => ⟨S_, .f32⟩
  | 5 => ⟨S64, .f32⟩
  | 6 => ⟨S50000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_1 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_cst_1 : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_v4 : Ref sig .tc := ⟨.hbm, 82, rfl⟩
abbrev main_call1_v5 : Ref sig .tc := ⟨.hbm, 83, rfl⟩
abbrev main_call1_cst_2 : Ref sig .tc := ⟨.hbm, 84, rfl⟩
abbrev main_call1_v6 : Ref sig .tc := ⟨.hbm, 85, rfl⟩
abbrev main_call1_v7 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_4 : Ref sig .tc := ⟨.hbm, 92, rfl⟩
abbrev main_v46 : Ref sig .tc := ⟨.hbm, 93, rfl⟩
abbrev main_v47 : Ref sig .tc := ⟨.hbm, 94, rfl⟩
abbrev main_c_5 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_6 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_call2_cst_1 : Ref sig .tc := ⟨.hbm, 117, rfl⟩
abbrev main_call2_call0_v0 : Ref sig .tc := ⟨.hbm, 118, rfl⟩
abbrev main_call2_call0_v1 : Ref sig .tc := ⟨.hbm, 119, rfl⟩
abbrev main_call2_v4 : Ref sig .tc := ⟨.hbm, 120, rfl⟩
abbrev main_call2_v5 : Ref sig .tc := ⟨.hbm, 121, rfl⟩
abbrev main_call2_cst_2 : Ref sig .tc := ⟨.hbm, 122, rfl⟩
abbrev main_call2_v6 : Ref sig .tc := ⟨.hbm, 123, rfl⟩
abbrev main_call2_v7 : Ref sig .tc := ⟨.hbm, 124, rfl⟩
abbrev main_v62 : Ref sig .tc := ⟨.hbm, 125, rfl⟩
abbrev main_cst_7 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_8 : Ref sig .tc := ⟨.hbm, 130, rfl⟩
abbrev main_v66 : Ref sig .tc := ⟨.hbm, 131, rfl⟩
abbrev main_cst_9 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_10 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The kernel program's run with its result named.

  The program is seven segments: a stretch of host operations, a grid of 25 row blocks, a stretch, a grid, a
  stretch, a grid, a last stretch. The buffer contents at each boundary are a fold from the launch memory
  (`W0` … `W7`): a host stretch applies its operations in order, a grid replaces its output array by what the
  25 write-backs leave and keeps every other buffer. Every weakly fair execution terminates without a fault with
  every unscoped buffer at `W7`; read at the result buffer and at the twelve argument buffers (which no
  operation and no grid writes) this is the statement below.
-/
import proofs.«119849_j55052890800550_1_alg».proof.Proof.FrameKI

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents `W7` and the argument arrays as launched: the segments' chain launched from the
    initial memory, the last thread state read against the final state, the result buffer among the unscoped ones. -/
theorem run_main : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KRun

end
-- ==== Proof.Spec.lean ====
/-
  The one function both programs compute, written once.

  A graph network of three layers over 50000 nodes and 800000 edges. One layer takes the node features `h`,
  sums over every edge the source node's row into the destination node's row (`agg`), and returns
  `elu (agg · w_rel + b_rel + h · w_root)`; the last step averages the node rows of each of 64 graphs.
  The aggregation, the pooling and the index arithmetic in front of them are the same host operations in both
  programs, so they are named here as whole-array functions and never opened. What differs between the two
  programs is only how one layer's `elu (agg · w_rel + b_rel + h · w_root)` is computed — row blocks of 2000
  in one, whole arrays in the other — and for that the layer is also stated entry by entry (`comb…`).
-/
import proofs.«119849_j55052890800550_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Gen

variable {F : FTy → Type} [FloatOps F]

/-! ## The shared host chains, as whole-array functions -/

/-- One row of the edge table as a vector of 800000 node numbers. -/
def edgeRow0 (e : IVec S2x800000 32) : IVec S800000 32 :=
  shapeCast S800000 (extractStridedSlice S1x800000 ![0, 0] e slices_S2x800000_S1x800000_0_0) shapeCasts_S1x800000_S800000
def edgeRow1 (e : IVec S2x800000 32) : IVec S800000 32 :=
  shapeCast S800000 (extractStridedSlice S1x800000 ![1, 0] e slices_S2x800000_S1x800000_1_0) shapeCasts_S1x800000_S800000

/-- The source node of every edge as a column of start indices: a negative number is counted from the end
    (50000 is added to it once). -/
def srcIx (e : IVec S2x800000 32) : IVec S800000x1 32 :=
  broadcastInDim S800000x1 ![0] bcast_S800000_S800000x1_0
    (select (cmpi .slt (edgeRow0 e) (broadcastInDim S800000 ![] bcast_S_S800000 (constantI S_ 32 0#32)))
      (addi (edgeRow0 e) (broadcastInDim S800000 ![] bcast_S_S800000 (constantI S_ 32 50000#32))) (edgeRow0 e))

/-- The destination node of every edge as a column of start indices. -/
def dstIx (e : IVec S2x800000 32) : IVec S800000x1 32 :=
  broadcastInDim S800000x1 ![0] bcast_S800000_S800000x1_0 (edgeRow1 e)

/-- The sum, into each node's row, of the rows of the source nodes of the edges that end there (128 columns). -/
def agg128 (h : FVec F S50000x128 .f32) (e : IVec S2x800000 32) : FVec F S50000x128 .f32 :=
  Host.scatterAdd scatter_S50000x128_S800000x1_S800000x128_1_0_0_1
    (broadcastInDim S50000x128 ![] bcast_S_S50000x128 (constant S_ .f32 0x00000000#32)) (dstIx e)
    (Host.gather gather_S50000x128_S800000x1_S800000x128_1_0_n_n_0_1_1128 h (srcIx e))

/-- The same over 256 columns. -/
def agg256 (h : FVec F S50000x256 .f32) (e : IVec S2x800000 32) : FVec F S50000x256 .f32 :=
  Host.scatterAdd scatter_S50000x256_S800000x1_S800000x256_1_0_0_1
    (broadcastInDim S50000x256 ![] bcast_S_S50000x256 (constant S_ .f32 0x00000000#32)) (dstIx e)
    (Host.gather gather_S50000x256_S800000x1_S800000x256_1_0_n_n_0_1_1256 h (srcIx e))

/-- The mean of the node rows of each graph: the rows summed by graph number, divided by the number of the graph's
    nodes, or by one for a graph without nodes. -/
def pool (h : FVec F S50000x128 .f32) (bt : IVec S50000 32) : FVec F S64x128 .f32 :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 bt) h)
    (broadcastInDim S64x128 ![0, 1] bcast_S64x1_S64x128_0_1 (broadcastInDim S64x1 ![0] bcast_S64_S64x1_0
      (maximumf
        (Host.scatterAdd scatter_S64_S50000x1_S50000_n_0_0_1
          (broadcastInDim S64 ![] bcast_S_S64 (constant S_ .f32 0x00000000#32))
          (broadcastInDim S50000x1 ![0] bcast_S50000_S50000x1_0 bt)
          (broadcastInDim S50000 ![] bcast_S_S50000 (constant S_ .f32 0x3F800000#32)))
        (broadcastInDim S64 ![] bcast_S_S64 (constant S_ .f32 0x3F800000#32)))))

/-! ## One layer on whole arrays: `elu (agg · w_rel + b_rel + h · w_root)` -/

/-- `elu z = z` where `z > 0`, else `1 · expm1 z'` with `z'` the entry itself there (and zero where `z > 0`). -/
def elu128 (z : FVec F S50000x128 .f32) : FVec F S50000x128 .f32 :=
  select (cmpf .ogt z (broadcastInDim S50000x128 ![] bcast_S_S50000x128 (constant S_ .f32 0x00000000#32))) z
    (mulf (broadcastInDim S50000x128 ![] bcast_S_S50000x128 (constant S_ .f32 0x3F800000#32))
      (Host.expm1 (select (cmpf .ogt z (broadcastInDim S50000x128 ![] bcast_S_S50000x128 (constant S_ .f32 0x00000000#32)))
        (broadcastInDim S50000x128 ![] bcast_S_S50000x128 (constant S_ .f32 0x00000000#32)) z)))

def elu256 (z : FVec F S50000x256 .f32) : FVec F S50000x256 .f32 :=
  select (cmpf .ogt z (broadcastInDim S50000x256 ![] bcast_S_S50000x256 (constant S_ .f32 0x00000000#32))) z
    (mulf (broadcastInDim S50000x256 ![] bcast_S_S50000x256 (constant S_ .f32 0x3F800000#32))
      (Host.expm1 (select (cmpf .ogt z (broadcastInDim S50000x256 ![] bcast_S_S50000x256 (constant S_ .f32 0x00000000#32)))
        (broadcastInDim S50000x256 ![] bcast_S_S50000x256 (constant S_ .f32 0x00000000#32)) z)))

/-- The linear part of a layer from 128 to 128 features. -/
def lin1 (a h : FVec F S50000x128 .f32) (w : FVec F S128x128 .f32) (b : FVec F S128 .f32) (r : FVec F S128x128 .f32) :
    FVec F S50000x128 .f32 :=
  addf (addf (Host.dotGeneral dot_S50000x128_S128x128_S50000x128_1_0_0_1_n_n none a w)
      (broadcastInDim S50000x128 ![0, 1] bcast_S1x128_S50000x128_0_1 (broadcastInDim S1x128 ![1] bcast_S128_S1x128_1 b)))
    (Host.dotGeneral dot_S50000x128_S128x128_S50000x128_1_0_0_1_n_n none h r)

/-- From 128 to 256 features. -/
def lin2 (a h : FVec F S50000x128 .f32) (w : FVec F S128x256 .f32) (b : FVec F S256 .f32) (r : FVec F S128x256 .f32) :
    FVec F S50000x256 .f32 :=
  addf (addf (Host.dotGeneral dot_S50000x128_S128x256_S50000x256_1_0_0_1_n_n none a w)
      (broadcastInDim S50000x256 ![0, 1] bcast_S1x256_S50000x256_0_1 (broadcastInDim S1x256 ![1] bcast_S256_S1x256_1 b)))
    (Host.dotGeneral dot_S50000x128_S128x256_S50000x256_1_0_0_1_n_n none h r)

/-- From 256 to 128 features. -/
def lin3 (a h : FVec F S50000x256 .f32) (w : FVec F S256x128 .f32) (b : FVec F S128 .f32) (r : FVec F S256x128 .f32) :
    FVec F S50000x128 .f32 :=
  addf (addf (Host.dotGeneral dot_S50000x256_S256x128_S50000x128_1_0_0_1_n_n none a w)
      (broadcastInDim S50000x128 ![0, 1] bcast_S1x128_S50000x128_0_1 (broadcastInDim S1x128 ![1] bcast_S128_S1x128_1 b)))
    (Host.dotGeneral dot_S50000x256_S256x128_S50000x128_1_0_0_1_n_n none h r)

/-- The three layers given their aggregated inputs. -/
def layer1 (a h : FVec F S50000x128 .f32) (w : FVec F S128x128 .f32) (b : FVec F S128 .f32) (r : FVec F S128x128 .f32) :
    FVec F S50000x128 .f32 := elu128 (lin1 a h w b r)
def layer2 (a h : FVec F S50000x128 .f32) (w : FVec F S128x256 .f32) (b : FVec F S256 .f32) (r : FVec F S128x256 .f32) :
    FVec F S50000x256 .f32 := elu256 (lin2 a h w b r)
def layer3 (a h : FVec F S50000x256 .f32) (w : FVec F S256x128 .f32) (b : FVec F S128 .f32) (r : FVec F S256x128 .f32) :
    FVec F S50000x128 .f32 := elu128 (lin3 a h w b r)

/-- The node features after each layer, and the result. -/
def h1 (x : FVec F S50000x128 .f32) (e : IVec S2x800000 32) (w1 : FVec F S128x128 .f32) (b1 : FVec F S128 .f32)
    (r1 : FVec F S128x128 .f32) : FVec F S50000x128 .f32 := layer1 (agg128 x e) x w1 b1 r1
def h2 (g : FVec F S50000x128 .f32) (e : IVec S2x800000 32) (w2 : FVec F S128x256 .f32) (b2 : FVec F S256 .f32)
    (r2 : FVec F S128x256 .f32) : FVec F S50000x256 .f32 := layer2 (agg128 g e) g w2 b2 r2
def h3 (g : FVec F S50000x256 .f32) (e : IVec S2x800000 32) (w3 : FVec F S256x128 .f32) (b3 : FVec F S128 .f32)
    (r3 : FVec F S256x128 .f32) : FVec F S50000x128 .f32 := layer3 (agg256 g e) g w3 b3 r3

/-- The whole network. -/
def out (x : FVec F S50000x128 .f32) (e : IVec S2x800000 32) (bt : IVec S50000 32)
    (w1 : FVec F S128x128 .f32) (b1 : FVec F S128 .f32) (r1 : FVec F S128x128 .f32)
    (w2 : FVec F S128x256 .f32) (b2 : FVec F S256 .f32) (r2 : FVec F S128x256 .f32)
    (w3 : FVec F S256x128 .f32) (b3 : FVec F S128 .f32) (r3 : FVec F S256x128 .f32) : FVec F S64x128 .f32 :=
  pool (h3 (h2 (h1 x e w1 b1 r1) e w2 b2 r2) e w3 b3 r3) bt

/-! ## One layer entry by entry, on the extended reals -/

/-- `elu` of one extended real, with `expm1 z = exp z - 1`. -/
def eluS (z : EReal) : EReal := if 0 < z then z else Ideal.exp z - 1

/-- Entry `(i, j)` of a layer from `K` to `M` features: `elu (∑ₖ a i k · w k j + b j + ∑ₖ h i k · r k j)`, the bias
    given as a function of the column. -/
def comb {N K M : Nat} (a h : (⟨2, ![N, K]⟩ : Shape).Idx → EReal) (w r : (⟨2, ![K, M]⟩ : Shape).Idx → EReal)
    (b : Fin M → EReal) : (⟨2, ![N, M]⟩ : Shape).Idx → EReal :=
  fun i => eluS ((∑ k : Fin K, a (ix2 (i 0) k) * w (ix2 k (i 1))) + b (i 1) + ∑ k : Fin K, h (ix2 (i 0) k) * r (ix2 k (i 1)))

end Cert.Spec

end
-- ==== Proof.KHost.lean ====
/-
  The host stretches of the kernel program, read back.

  Between the grids the program applies host operations to whole arrays. Read at the buffers the next grid takes
  as its windows, each stretch is a function of what the stretch was entered with: the edge table's two rows
  (computed once, in the first stretch, and used by all three), the sum over the edges of the source rows into the
  destination rows of the current node features, the bias vector as a one-row matrix; the last stretch is the
  mean over each graph's nodes. A buffer that no operation of a stretch writes, and that is not an array of the
  grid in between, keeps its contents: so the weight and bias arguments reach each grid as launched.
-/
import proofs.«119849_j55052890800550_1_alg».proof.Proof.FrameKI
import proofs.«119849_j55052890800550_1_alg».proof.Proof.Spec
import Idealize.ShloMosaic.Lib.StableHlo.Run
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

-- the aggregation, the gather under it and the closing division are compared as wholes, never opened
attribute [local irreducible] Host.scatterAdd Host.gather Host.divf

/-! ## The first stretch, from the launch memory -/

/-- The edge table's first row. -/
theorem W1_v1 : W1 m ρ c (Proc.devRef .tc main_v1) = Cert.Spec.edgeRow0 (m ((c : Thread nD τ).loc main_arg1)) := by
  show StableHlo.after hostOps0 (W0 m ρ c) (Proc.devRef .tc main_v1) = _
  after_results
  rfl
/-- The edge table's second row. -/
theorem W1_v3 : W1 m ρ c (Proc.devRef .tc main_v3) = Cert.Spec.edgeRow1 (m ((c : Thread nD τ).loc main_arg1)) := by
  show StableHlo.after hostOps0 (W0 m ρ c) (Proc.devRef .tc main_v3) = _
  after_results
  rfl
/-- The first layer's aggregated input: the sum over the edges of the input features' source rows. -/
theorem W1_v13 : W1 m ρ c (Proc.devRef .tc main_v13) = Cert.Spec.agg128 (F := Ideal) (m ((c : Thread nD τ).loc main_arg0)) (m ((c : Thread nD τ).loc main_arg1)) := by
  show StableHlo.after hostOps0 (W0 m ρ c) (Proc.devRef .tc main_v13) = _
  after_results
  rfl
/-- The first bias as a one-row matrix: its entry in column `j` is the vector's entry `j`. -/
theorem W1_v14 (j : Fin 128) : W1 m ρ c (Proc.devRef .tc main_v14) (ix2 (0 : Fin 1) j) = m ((c : Thread nD τ).loc main_arg4) (ix1 j) := by
  show StableHlo.after hostOps0 (W0 m ρ c) (Proc.devRef .tc main_v14) (ix2 (0 : Fin 1) j) = _
  after_results
  exact shapeCast_a_1a_apply _ _ 0 j
theorem W1_arg0 : W1 m ρ c (Proc.devRef .tc main_arg0) = m ((c : Thread nD τ).loc main_arg0) := by
  show StableHlo.after hostOps0 (W0 m ρ c) (Proc.devRef .tc main_arg0) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results
theorem W1_arg10 : W1 m ρ c (Proc.devRef .tc main_arg10) = m ((c : Thread nD τ).loc main_arg10) := by
  show StableHlo.after hostOps0 (W0 m ρ c) (Proc.devRef .tc main_arg10) = _
  after_results
theorem W1_arg11 : W1 m ρ c (Proc.devRef .tc main_arg11) = m ((c : Thread nD τ).loc main_arg11) := by
  show StableHlo.after hostOps0 (W0 m ρ c) (Proc.devRef .tc main_arg11) = _
  after_results

/-! ## Across the first grid: only its output array changes -/

theorem W2_v1 : W2 m ρ c (Proc.devRef .tc main_v1) = Cert.Spec.edgeRow0 (m ((c : Thread nD τ).loc main_arg1)) :=
  (W2_of_ne m ρ c main_v1 (by decide)).trans (W1_v1 m ρ c)
theorem W2_v3 : W2 m ρ c (Proc.devRef .tc main_v3) = Cert.Spec.edgeRow1 (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)

/-! ## The second stretch, from the first grid's exit -/

theorem W3_v1 : W3 m ρ c (Proc.devRef .tc main_v1) = Cert.Spec.edgeRow0 (m ((c : Thread nD τ).loc main_arg1)) := by
  show StableHlo.after hostOps1 (W2 m ρ c) (Proc.devRef .tc main_v1) = _
  after_results
  exact W2_v1 m ρ c
theorem W3_v3 : W3 m ρ c (Proc.devRef .tc main_v3) = Cert.Spec.edgeRow1 (m ((c : Thread nD τ).loc main_arg1)) := by
  show StableHlo.after hostOps1 (W2 m ρ c) (Proc.devRef .tc main_v3) = _
  after_results
  exact W2_v3 m ρ c
/-- The first layer's output passes the stretch unchanged. -/
theorem W3_v15 : W3 m ρ c (Proc.devRef .tc main_v15) = W2 m ρ c (Proc.devRef .tc main_v15) := by
  show StableHlo.after hostOps1 (W2 m ρ c) (Proc.devRef .tc main_v15) = _
  after_results
/-- The second layer's aggregated input, of the first layer's output. -/
theorem W3_v25 : W3 m ρ c (Proc.devRef .tc main_v25) = Cert.Spec.agg128 (F := Ideal) (W2 m ρ c (Proc.devRef .tc main_v15)) (m ((c : Thread nD τ).loc main_arg1)) := by
  show StableHlo.after hostOps1 (W2 m ρ c) (Proc.devRef .tc main_v25) = _
  after_results
  rw [W2_v1 m ρ c, W2_v3 m ρ c]
  rfl
theorem W3_v26 (j : Fin 256) : W3 m ρ c (Proc.devRef .tc main_v26) (ix2 (0 : Fin 1) j) = m ((c : Thread nD τ).loc main_arg7) (ix1 j) := by
  show StableHlo.after hostOps1 (W2 m ρ c) (Proc.devRef .tc main_v26) (ix2 (0 : Fin 1) j) = _
  after_results
  rw [W2_arg7 m ρ c]
  exact shapeCast_a_1a_apply _ _ 0 j
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
theorem W3_arg8 : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c

/-! ## Across the second grid -/

theorem W4_v1 : W4 m ρ c (Proc.devRef .tc main_v1) = Cert.Spec.edgeRow0 (m ((c : Thread nD τ).loc main_arg1)) :=
  (W4_of_ne m ρ c main_v1 (by decide)).trans (W3_v1 m ρ c)
theorem W4_v3 : W4 m ρ c (Proc.devRef .tc main_v3) = Cert.Spec.edgeRow1 (m ((c : Thread nD τ).loc main_arg1)) :=
  (W4_of_ne m ρ c main_v3 (by decide)).trans (W3_v3 m ρ c)
theorem W4_arg2 : W4 m ρ c (Proc.devRef .tc main_arg2) = m ((c : Thread nD τ).loc main_arg2) :=
  (W4_of_ne m ρ c main_arg2 (by decide)).trans (W3_arg2 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)

/-! ## The third stretch -/

/-- The second layer's output passes the stretch unchanged. -/
theorem W5_v27 : W5 m ρ c (Proc.devRef .tc main_v27) = W4 m ρ c (Proc.devRef .tc main_v27) := by
  show StableHlo.after hostOps2 (W4 m ρ c) (Proc.devRef .tc main_v27) = _
  after_results
/-- The third layer's aggregated input, of the second layer's output. -/
theorem W5_v37 : W5 m ρ c (Proc.devRef .tc main_v37) = Cert.Spec.agg256 (F := Ideal) (W4 m ρ c (Proc.devRef .tc main_v27)) (m ((c : Thread nD τ).loc main_arg1)) := by
  show StableHlo.after hostOps2 (W4 m ρ c) (Proc.devRef .tc main_v37) = _
  after_results
  rw [W4_v1 m ρ c, W4_v3 m ρ c]
  rfl
theorem W5_v38 (j : Fin 128) : W5 m ρ c (Proc.devRef .tc main_v38) (ix2 (0 : Fin 1) j) = m ((c : Thread nD τ).loc main_arg10) (ix1 j) := by
  show StableHlo.after hostOps2 (W4 m ρ c) (Proc.devRef .tc main_v38) (ix2 (0 : Fin 1) j) = _
  after_results
  rw [W4_arg10 m ρ c]
  exact shapeCast_a_1a_apply _ _ 0 j
theorem W5_arg2 : W5 m ρ c (Proc.devRef .tc main_arg2) = m ((c : Thread nD τ).loc main_arg2) := by
  show StableHlo.after hostOps2 (W4 m ρ c) (Proc.devRef .tc main_arg2) = _
  after_results
  exact W4_arg2 m ρ c
theorem W5_arg9 : W5 m ρ c (Proc.devRef .tc main_arg9) = m ((c : Thread nD τ).loc main_arg9) := by
  show StableHlo.after hostOps2 (W4 m ρ c) (Proc.devRef .tc main_arg9) = _
  after_results
  exact W4_arg9 m ρ c
theorem W5_arg11 : W5 m ρ c (Proc.devRef .tc main_arg11) = m ((c : Thread nD τ).loc main_arg11) := by
  show StableHlo.after hostOps2 (W4 m ρ c) (Proc.devRef .tc main_arg11) = _
  after_results
  exact W4_arg11 m ρ c

/-! ## Across the third grid, and the last stretch: the mean over each graph -/

theorem W6_arg2 : W6 m ρ c (Proc.devRef .tc main_arg2) = m ((c : Thread nD τ).loc main_arg2) :=
  (W6_of_ne m ρ c main_arg2 (by decide)).trans (W5_arg2 m ρ c)

/-- The result: the third layer's output pooled by graph. -/
theorem W7_v51 : W7 m ρ c (Proc.devRef .tc main_v51) = Cert.Spec.pool (F := Ideal) (W6 m ρ c (Proc.devRef .tc main_v39)) (m ((c : Thread nD τ).loc main_arg2)) := by
  show StableHlo.after hostOps3 (W6 m ρ c) (Proc.devRef .tc main_v51) = _
  after_results
  rw [W6_arg2 m ρ c]
  rfl

end Cert.KernelIdeal.KHost

end
-- ==== Proof.KValue.lean ====
/-
  The kernel program's result as the network, layer by layer.

  A grid's output array is, entry by entry, `elu (∑ₖ a i k · w k j + b j + ∑ₖ h i k · r k j)` of its five window
  arrays as the grid finds them (the closed form of the 25 row blocks), and the same entrywise function is one layer
  on whole arrays. The window arrays are what the host stretch in front of the grid leaves: the aggregated features,
  the features, the two weight matrices as launched, the bias as a row. So the first grid's output is the first
  layer of the input features, the second grid's the second layer of that, the third grid's the third layer, and the
  last stretch pools it: the result buffer ends at the network of the argument arrays.
-/
import proofs.«119849_j55052890800550_1_alg».proof.Proof.KHost

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first grid's output array is the first layer of the input features. `hf`: the grid's closed form at its
    entry contents; `hl`: the layer on whole arrays is the same entrywise function. -/
theorem layer1_out
    (hf : (dat0 (V1 m ρ) c).arrAt 5 cfg0.N
      = Cert.Spec.comb (N := 50000) (K := 128) (M := 128) (W1 m ρ c (Proc.devRef .tc main_v13)) (W1 m ρ c (Proc.devRef .tc main_arg0))
          (W1 m ρ c (Proc.devRef .tc main_arg3)) (W1 m ρ c (Proc.devRef .tc main_arg5)) (fun j => W1 m ρ c (Proc.devRef .tc main_v14) (ix2 (0 : Fin 1) j)))
    (hl : ∀ (a h : FVec Ideal Cert.ReferenceIdeal.S50000x128 .f32) (w : FVec Ideal Cert.ReferenceIdeal.S128x128 .f32)
        (b : FVec Ideal Cert.ReferenceIdeal.S128 .f32) (r : FVec Ideal Cert.ReferenceIdeal.S128x128 .f32),
        Cert.Spec.layer1 (F := Ideal) a h w b r = Cert.Spec.comb a h w r (fun j => b (ix1 j))) :
    W2 m ρ c (Proc.devRef .tc main_v15)
      = Cert.Spec.h1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := (W2_arr m ρ c 5).trans hf
  rw [W1_v13 m ρ c, W1_arg0 m ρ c, W1_arg3 m ρ c, W1_arg5 m ρ c] at h
  simp only [W1_v14 m ρ c] at h
  exact h.trans (hl _ _ _ _ _).symm

/-- The second grid's output array is the second layer of the first grid's output. -/
theorem layer2_out
    (hf : (dat1 (V3 m ρ) c).arrAt 5 cfg1.N
      = Cert.Spec.comb (N := 50000) (K := 128) (M := 256) (W3 m ρ c (Proc.devRef .tc main_v25)) (W3 m ρ c (Proc.devRef .tc main_v15))
          (W3 m ρ c (Proc.devRef .tc main_arg6)) (W3 m ρ c (Proc.devRef .tc main_arg8)) (fun j => W3 m ρ c (Proc.devRef .tc main_v26) (ix2 (0 : Fin 1) j)))
    (hl : ∀ (a h : FVec Ideal Cert.ReferenceIdeal.S50000x128 .f32) (w : FVec Ideal Cert.ReferenceIdeal.S128x256 .f32)
        (b : FVec Ideal Cert.ReferenceIdeal.S256 .f32) (r : FVec Ideal Cert.ReferenceIdeal.S128x256 .f32),
        Cert.Spec.layer2 (F := Ideal) a h w b r = Cert.Spec.comb a h w r (fun j => b (ix1 j))) :
    W4 m ρ c (Proc.devRef .tc main_v27)
      = Cert.Spec.h2 (F := Ideal) (W2 m ρ c (Proc.devRef .tc main_v15)) (m ((c : Thread nD τ).loc main_arg1)) (m ((c : Thread nD τ).loc main_arg6)) (m ((c : Thread nD τ).loc main_arg7)) (m ((c : Thread nD τ).loc main_arg8)) := by
  have h := (W4_arr m ρ c 5).trans hf
  rw [W3_v25 m ρ c, W3_v15 m ρ c, W3_arg6 m ρ c, W3_arg8 m ρ c] at h
  simp only [W3_v26 m ρ c] at h
  exact h.trans (hl _ _ _ _ _).symm

/-- The third grid's output array is the third layer of the second grid's output. -/
theorem layer3_out
    (hf : (dat2 (V5 m ρ) c).arrAt 5 cfg2.N
      = Cert.Spec.comb (N := 50000) (K := 256) (M := 128) (W5 m ρ c (Proc.devRef .tc main_v37)) (W5 m ρ c (Proc.devRef .tc main_v27))
          (W5 m ρ c (Proc.devRef .tc main_arg9)) (W5 m ρ c (Proc.devRef .tc main_arg11)) (fun j => W5 m ρ c (Proc.devRef .tc main_v38) (ix2 (0 : Fin 1) j)))
    (hl : ∀ (a h : FVec Ideal Cert.ReferenceIdeal.S50000x256 .f32) (w : FVec Ideal Cert.ReferenceIdeal.S256x128 .f32)
        (b : FVec Ideal Cert.ReferenceIdeal.S128 .f32) (r : FVec Ideal Cert.ReferenceIdeal.S256x128 .f32),
        Cert.Spec.layer3 (F := Ideal) a h w b r = Cert.Spec.comb a h w r (fun j => b (ix1 j))) :
    W6 m ρ c (Proc.devRef .tc main_v39)
      = Cert.Spec.h3 (F := Ideal) (W4 m ρ c (Proc.devRef .tc main_v27)) (m ((c : Thread nD τ).loc main_arg1)) (m ((c : Thread nD τ).loc main_arg9)) (m ((c : Thread nD τ).loc main_arg10)) (m ((c : Thread nD τ).loc main_arg11)) := by
  have h := (W6_arr m ρ c 5).trans hf
  rw [W5_v37 m ρ c, W5_v27 m ρ c, W5_arg9 m ρ c, W5_arg11 m ρ c] at h
  simp only [W5_v38 m ρ c] at h
  exact h.trans (hl _ _ _ _ _).symm

/-- The result buffer ends at the network of the argument arrays: the three layers composed, pooled by graph. -/
theorem result_eq
    (h1 : W2 m ρ c (Proc.devRef .tc main_v15)
      = Cert.Spec.h1 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
    (h2 : W4 m ρ c (Proc.devRef .tc main_v27)
      = Cert.Spec.h2 (F := Ideal) (W2 m ρ c (Proc.devRef .tc main_v15)) (m ((c : Thread nD τ).loc main_arg1)) (m ((c : Thread nD τ).loc main_arg6)) (m ((c : Thread nD τ).loc main_arg7)) (m ((c : Thread nD τ).loc main_arg8)))
    (h3 : W6 m ρ c (Proc.devRef .tc main_v39)
      = Cert.Spec.h3 (F := Ideal) (W4 m ρ c (Proc.devRef .tc main_v27)) (m ((c : Thread nD τ).loc main_arg1)) (m ((c : Thread nD τ).loc main_arg9)) (m ((c : Thread nD τ).loc main_arg10)) (m ((c : Thread nD τ).loc main_arg11))) :
    W7 m ρ c (Proc.devRef .tc main_v51)
      = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W7_v51 m ρ c, h3, h2, h1]
  rfl

end Cert.KernelIdeal.KValue

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Entry.lean ====
/-
  One layer of the network, entry by entry, on the extended reals.

  Every float is an extended real and every operation is exact, so a layer is the function
  `(i, j) ↦ elu (∑ₖ a (i, k) · w (k, j) + b j + ∑ₖ h (i, k) · r (k, j))`. Two families of statements say so, one for
  each program and one instance for each of the three layers (128 → 128, 128 → 256, 256 → 128 features):
  `payN_apply` reads the value a layer's block body stores at a row and column of its block of 2000 rows, and
  `layerN_eq` says the whole-array layer is the entrywise function `Spec.comb`.

  Both rest on three facts. A product contracted over one shared axis, read at `(p, q)`, is the sum over that
  axis's coordinate of `A (p, k) · B (k, q)`, and the bias, a vector of column values laid out as one row and repeated
  over the rows, reads its entry `q` at `(p, q)`: these two hold at every size and are `LibDotSum.sum_dot` and
  `LibDotSum.bias_apply` of the sibling module. The third is particular to this network, `elu` at one extended
  real `z`: the block body writes `z` where `z > 0` and `exp z - 1` elsewhere; the whole-array program writes `z` where
  `z > 0` and `1 · expm1 z'` elsewhere, with `z' = z` there, and `expm1 x = exp x - 1`. Both are `Spec.eluS z`.
-/
import proofs.«119849_j55052890800550_1_alg».proof.Proof.Spec
import proofs.«119849_j55052890800550_1_alg».proof.Proof.Gen.KernelIdeal.Skeleton
import proofs.«119849_j55052890800550_1_alg».proof.Proof.LibDotSum
import Idealize.ShloMosaic.PureOps.Ideal.Laws
import Idealize.ShloMosaic.Lib.ValueIdx
import Idealize.ShloMosaic.Lib.ValueLayout
import Idealize.ShloMosaic.Lib.Pipeline.Value

noncomputable section

namespace Cert.Entry

open Idealize.ShloMosaic Idealize.ShloMosaic.ValueIdx Cert.LibDotSum

/-! ## `elu` at one extended real -/

/-- `z` where `z > 0`, else `exp z - 1`: the block body's form of `elu`. -/
theorem elu_kernel (z : Ideal .f32) :
    Scalar.select (FloatOps.cmpf .ogt z (Scalar.ofBits .f32 0x00000000#32)) z
        (FloatOps.subf (FloatOps.exp z) (Scalar.ofBits .f32 0x3F800000#32)) = Cert.Spec.eluS z := by
  have hs : ∀ b : BitVec (FTy.f32).bits, Scalar.ofBits (F := Ideal) .f32 b = Ideal.ofBits .f32 b := fun _ => rfl
  have hsub : ∀ a b : Ideal .f32, FloatOps.subf a b = a - b := fun _ _ => rfl
  simp only [Scalar.select, Ideal.cmpf_def, Ideal.cmp, hs, hsub, Ideal.exp_def, Ideal.ofBits_zero_f32, one_f32, Cert.Spec.eluS]
  by_cases h : (0 : EReal) < z
  · simp [h]
  · simp [h]

/-- `z` where `z > 0`, else `1 · expm1 z'` with `z' = z` there (and `0` where `z > 0`): the whole-array program's form of
    `elu`, with `expm1 x = exp x - 1`. -/
theorem elu_ref (z : Ideal .f32) :
    Scalar.select (FloatOps.cmpf .ogt z (Ideal.ofBits .f32 0x00000000#32)) z
        (FloatOps.mulf (Ideal.ofBits .f32 0x3F800000#32)
          (FloatOps.hostUnary .expm1
            (Scalar.select (FloatOps.cmpf .ogt z (Ideal.ofBits .f32 0x00000000#32)) (Ideal.ofBits .f32 0x00000000#32) z)))
      = Cert.Spec.eluS z := by
  have hmul : ∀ a b : Ideal .f32, FloatOps.mulf a b = a * b := fun _ _ => rfl
  simp only [Scalar.select, Ideal.cmpf_def, Ideal.cmp, hmul, Ideal.hostUnary_expm1_def, Ideal.ofBits_zero_f32, one_f32,
    Cert.Spec.eluS]
  by_cases h : (0 : EReal) < z
  · simp [h]
  · simp [h]

/-! ## The value a layer's block body stores, at an index -/

section Kernel
open Cert.KernelIdeal Cert.KernelIdeal.Gen

/-- Layer 0's product into a zero accumulator, at `(p, q)`: `∑ₖ A (p, k) · B (k, q)`. -/
theorem mm_k0 {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) :=
  (Ideal.matmul_constant_zero_apply _ none A B (ix2 p q)).trans
    (sum_dot _ rfl rfl (fun _ _ => rfl) (fun _ _ => rfl) (fun _ _ => rfl) (fun _ _ => rfl) A B p q)

/-- The value layer 0's body stores, at row `p` and column `q` of its block: `elu` of the two products' entries plus the
    bias row's entry `q`. The narrowing to sixteen bits and the same-shape casts are the identity on extended reals;
    the bias row is repeated over the block's rows. -/
theorem pay0_apply (x0 x1 : Vec Ideal S2000x128 .f32) (x2 x3 : Vec Ideal S128x128 .f32) (x4 : Vec Ideal S1x128 .f32) (p : Fin 2000) (q : Fin 128) :
    Cert.KernelIdeal.Gen.k0_pay1 (F := Ideal) x0 x1 x2 x3 x4 (ix2 p q)
      = Cert.Spec.eluS ((∑ k : Fin 128, x0 (ix2 p k) * x2 (ix2 k q)) + x4 (ix2 0 q) + ∑ k : Fin 128, x1 (ix2 p k) * x3 (ix2 k q)) := by
  unfold Cert.KernelIdeal.Gen.k0_pay1
  simp only [select_apply, cmpf_apply, broadcast_apply]
  refine (elu_kernel _).trans (congrArg Cert.Spec.eluS ?_)
  simp only [addf_apply, shapeCast_self]
  exact add3 (mm_k0 _ _ p q) (broadcastTo_1b_ab_apply x4 _ p q) (mm_k0 _ _ p q)

/-- Layer 1's product into a zero accumulator, at `(p, q)`: `∑ₖ A (p, k) · B (k, q)`. -/
theorem mm_k1 {φ₁ φ₂ : FTy} (A : FVec Ideal S2000x128 φ₁) (B : FVec Ideal S128x256 φ₂) (p : Fin 2000) (q : Fin 256) :
    matmul dot_S2000x128_S128x256_S2000x256_1_0_0_1_n_n none A B (constant (F := Ideal) S2000x256 .f32 0x00000000#32) (ix2 p q)
      = ∑ k : Fin 128, A (ix2 p k) * B (ix2 k q) :=
  (Ideal.matmul_constant_zero_apply _ none A B (ix2 p q)).trans
    (sum_dot _ rfl rfl (fun _ _ => rfl) (fun _ _ => rfl) (fun _ _ => rfl) (fun _ _ => rfl) A B p q)

/-- The value layer 1's body stores, at row `p` and column `q` of its block: `elu` of the two products' entries plus the
    bias row's entry `q`. The narrowing to sixteen bits and the same-shape casts are the identity on extended reals;
    the bias row is repeated over the block's rows. -/
theorem pay1_apply (x0 x1 : Vec Ideal S2000x128 .f32) (x2 x3 : Vec Ideal S128x256 .f32) (x4 : Vec Ideal S1x256 .f32) (p : Fin 2000) (q : Fin 256) :
    Cert.KernelIdeal.Gen.k1_pay1 (F := Ideal) x0 x1 x2 x3 x4 (ix2 p q)
      = Cert.Spec.eluS ((∑ k : Fin 128, x0 (ix2 p k) * x2 (ix2 k q)) + x4 (ix2 0 q) + ∑ k : Fin 128, x1 (ix2 p k) * x3 (ix2 k q)) := by
  unfold Cert.KernelIdeal.Gen.k1_pay1
  simp only [select_apply, cmpf_apply, broadcast_apply]
  refine (elu_kernel _).trans (congrArg Cert.Spec.eluS ?_)
  simp only [addf_apply, shapeCast_self]
  exact add3 (mm_k1 _ _ p q) (broadcastTo_1b_ab_apply x4 _ p q) (mm_k1 _ _ p q)

/-- Layer 2's product into a zero accumulator, at `(p, q)`: `∑ₖ A (p, k) · B (k, q)`. -/
theorem mm_k2 {φ₁ φ₂ : FTy} (A : FVec Ideal S2000x256 φ₁) (B : FVec Ideal S256x128 φ₂) (p : Fin 2000) (q : Fin 128) :
    matmul dot_S2000x256_S256x128_S2000x128_1_0_0_1_n_n none A B (constant (F := Ideal) S2000x128 .f32 0x00000000#32) (ix2 p q)
      = ∑ k : Fin 256, A (ix2 p k) * B (ix2 k q) :=
  (Ideal.matmul_constant_zero_apply _ none A B (ix2 p q)).trans
    (sum_dot _ rfl rfl (fun _ _ => rfl) (fun _ _ => rfl) (fun _ _ => rfl) (fun _ _ => rfl) A B p q)

/-- The value layer 2's body stores, at row `p` and column `q` of its block: `elu` of the two products' entries plus the
    bias row's entry `q`. The narrowing to sixteen bits and the same-shape casts are the identity on extended reals;
    the bias row is repeated over the block's rows. -/
theorem pay2_apply (x0 x1 : Vec Ideal S2000x256 .f32) (x2 x3 : Vec Ideal S256x128 .f32) (x4 : Vec Ideal S1x128 .f32) (p : Fin 2000) (q : Fin 128) :
    Cert.KernelIdeal.Gen.k2_pay1 (F := Ideal) x0 x1 x2 x3 x4 (ix2 p q)
      = Cert.Spec.eluS ((∑ k : Fin 256, x0 (ix2 p k) * x2 (ix2 k q)) + x4 (ix2 0 q) + ∑ k : Fin 256, x1 (ix2 p k) * x3 (ix2 k q)) := by
  unfold Cert.KernelIdeal.Gen.k2_pay1
  simp only [select_apply, cmpf_apply, broadcast_apply]
  refine (elu_kernel _).trans (congrArg Cert.Spec.eluS ?_)
  simp only [addf_apply, shapeCast_self]
  exact add3 (mm_k2 _ _ p q) (broadcastTo_1b_ab_apply x4 _ p q) (mm_k2 _ _ p q)

end Kernel

/-! ## The whole-array layer as the entrywise function -/

section Reference
open Cert.ReferenceIdeal Cert.ReferenceIdeal.Gen

/-- Layer 1's host product at `(p, q)`: `∑ₖ A (p, k) · B (k, q)`. -/
theorem dg_r1 (A : FVec Ideal S50000x128 .f32) (B : FVec Ideal S128x128 .f32) (p : Fin 50000) (q : Fin 128) :
    Host.dotGeneral dot_S50000x128_S128x128_S50000x128_1_0_0_1_n_n none A B (ix2 p q)
      = ∑ k : Fin 128, A (ix2 p k) * B (ix2 k q) :=
  (Ideal.dotGeneral_apply _ none .single A B (ix2 p q)).trans
    (sum_dot _ rfl rfl (fun _ _ => rfl) (fun _ _ => rfl) (fun _ _ => rfl) (fun _ _ => rfl) A B p q)

/-- Layer 1 on whole arrays is, entry by entry, `elu (∑ₖ a (i, k) · w (k, j) + b j + ∑ₖ h (i, k) · r (k, j))`. -/
theorem layer1_eq (a h : FVec Ideal S50000x128 .f32) (w : FVec Ideal S128x128 .f32) (b : FVec Ideal S128 .f32) (r : FVec Ideal S128x128 .f32) :
    Cert.Spec.layer1 (F := Ideal) a h w b r = Cert.Spec.comb a h w r (fun j => b (ix1 j)) := by
  funext i
  obtain ⟨p, q, rfl⟩ : ∃ (p : Fin 50000) (q : Fin 128), i = ix2 p q := ⟨i 0, i 1, eq_ix2 i⟩
  unfold Cert.Spec.layer1 Cert.Spec.elu128 Cert.Spec.comb
  refine (elu_ref _).trans (congrArg Cert.Spec.eluS ?_)
  unfold Cert.Spec.lin1
  simp only [addf_apply]
  exact add3 (dg_r1 a w p q) (bias_apply b _ _ p q) (dg_r1 h r p q)

/-- Layer 2's host product at `(p, q)`: `∑ₖ A (p, k) · B (k, q)`. -/
theorem dg_r2 (A : FVec Ideal S50000x128 .f32) (B : FVec Ideal S128x256 .f32) (p : Fin 50000) (q : Fin 256) :
    Host.dotGeneral dot_S50000x128_S128x256_S50000x256_1_0_0_1_n_n none A B (ix2 p q)
      = ∑ k : Fin 128, A (ix2 p k) * B (ix2 k q) :=
  (Ideal.dotGeneral_apply _ none .single A B (ix2 p q)).trans
    (sum_dot _ rfl rfl (fun _ _ => rfl) (fun _ _ => rfl) (fun _ _ => rfl) (fun _ _ => rfl) A B p q)

/-- Layer 2 on whole arrays is, entry by entry, `elu (∑ₖ a (i, k) · w (k, j) + b j + ∑ₖ h (i, k) · r (k, j))`. -/
theorem layer2_eq (a h : FVec Ideal S50000x128 .f32) (w : FVec Ideal S128x256 .f32) (b : FVec Ideal S256 .f32) (r : FVec Ideal S128x256 .f32) :
    Cert.Spec.layer2 (F := Ideal) a h w b r = Cert.Spec.comb a h w r (fun j => b (ix1 j)) := by
  funext i
  obtain ⟨p, q, rfl⟩ : ∃ (p : Fin 50000) (q : Fin 256), i = ix2 p q := ⟨i 0, i 1, eq_ix2 i⟩
  unfold Cert.Spec.layer2 Cert.Spec.elu256 Cert.Spec.comb
  refine (elu_ref _).trans (congrArg Cert.Spec.eluS ?_)
  unfold Cert.Spec.lin2
  simp only [addf_apply]
  exact add3 (dg_r2 a w p q) (bias_apply b _ _ p q) (dg_r2 h r p q)

/-- Layer 3's host product at `(p, q)`: `∑ₖ A (p, k) · B (k, q)`. -/
theorem dg_r3 (A : FVec Ideal S50000x256 .f32) (B : FVec Ideal S256x128 .f32) (p : Fin 50000) (q : Fin 128) :
    Host.dotGeneral dot_S50000x256_S256x128_S50000x128_1_0_0_1_n_n none A B (ix2 p q)
      = ∑ k : Fin 256, A (ix2 p k) * B (ix2 k q) :=
  (Ideal.dotGeneral_apply _ none .single A B (ix2 p q)).trans
    (sum_dot _ rfl rfl (fun _ _ => rfl) (fun _ _ => rfl) (fun _ _ => rfl) (fun _ _ => rfl) A B p q)

/-- Layer 3 on whole arrays is, entry by entry, `elu (∑ₖ a (i, k) · w (k, j) + b j + ∑ₖ h (i, k) · r (k, j))`. -/
theorem layer3_eq (a h : FVec Ideal S50000x256 .f32) (w : FVec Ideal S256x128 .f32) (b : FVec Ideal S128 .f32) (r : FVec Ideal S256x128 .f32) :
    Cert.Spec.layer3 (F := Ideal) a h w b r = Cert.Spec.comb a h w r (fun j => b (ix1 j)) := by
  funext i
  obtain ⟨p, q, rfl⟩ : ∃ (p : Fin 50000) (q : Fin 128), i = ix2 p q := ⟨i 0, i 1, eq_ix2 i⟩
  unfold Cert.Spec.layer3 Cert.Spec.elu128 Cert.Spec.comb
  refine (elu_ref _).trans (congrArg Cert.Spec.eluS ?_)
  unfold Cert.Spec.lin3
  simp only [addf_apply]
  exact add3 (dg_r3 a w p q) (bias_apply b _ _ p q) (dg_r3 h r p q)

end Reference

end Cert.Entry

end
-- ==== Proof.Blocks.lean ====
/-
  From a region's row blocks to its whole output array.

  Each of the network's three layers is computed by a grid of 25 points over blocks of 2000 of the 50000 node rows.
  At point `t` the body reads rows `2000 t … 2000 t + 1999` of the aggregated features and of the node features, the two
  whole weight matrices and the bias row, and stores rows `2000 t … 2000 t + 1999` of the result. Given the body's
  arithmetic entry by entry (`hpay`: entry `(p, q)` of the stored block is
  `elu (∑ₖ x0 p k · x2 k q + x4 0 q + ∑ₖ x1 p k · x3 k q)` of the loaded blocks), the result array after the region is the
  whole-array layer function `Cert.Spec.comb` of the five arrays the region was entered with: an entry of the result
  depends only on its own row of the two row-blocked inputs, which is in the same block, and on arrays that every point
  reads whole; and the 25 blocks tile the rows. No law of arithmetic is used: both sides are the same term entry by entry.
-/
import proofs.«119849_j55052890800550_1_alg».proof.Proof.FrameKI
import proofs.«119849_j55052890800550_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

/-- The offsets of a load or store of a whole block are zero on both axes. -/
theorem hz : (![0, 0] : Fin 2 → Nat) = fun _ => 0 := funext fun a => by fin_cases a <;> rfl

/-- Two blocks of 2000 rows are equal when they agree at every pair of coordinates (128 columns). -/
theorem ext_2000x128 (f g : (⟨2, ![2000, 128]⟩ : Shape).Idx → EReal) (h : ∀ (p : Fin 2000) (q : Fin 128), f (ix2 p q) = g (ix2 p q)) : f = g := by
  funext j; rw [eq_ix2 j]; exact h _ _

/-- The same at 256 columns. -/
theorem ext_2000x256 (f g : (⟨2, ![2000, 256]⟩ : Shape).Idx → EReal) (h : ∀ (p : Fin 2000) (q : Fin 256), f (ix2 p q) = g (ix2 p q)) : f = g := by
  funext j; rw [eq_ix2 j]; exact h _ _

/-! ## Layer 1: 128 features to 128 -/

/-- One entry of a row block. If row `p` of the two row-blocked inputs is row `r` of their arrays, and the weight
    and bias blocks are their arrays, then entry `(p, q)` of what the body computes is entry `(r, q)` of the layer:
    both are `elu` of the same two sums over the 128 features plus the same bias. -/
theorem entry0
    (hpay : ∀ (x0 x1 : Vec Ideal S2000x128 .f32) (x2 x3 : Vec Ideal S128x128 .f32) (x4 : Vec Ideal S1x128 .f32) (p : Fin 2000) (q : Fin 128),
        k0_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (A0 A1 : (⟨2, ![50000, 128]⟩ : Shape).Idx → EReal) (A2 A3 : (⟨2, ![128, 128]⟩ : Shape).Idx → EReal) (A4 : (⟨2, ![1, 128]⟩ : Shape).Idx → EReal)
    (x0 x1 : Vec Ideal S2000x128 .f32) (x2 x3 : Vec Ideal S128x128 .f32) (x4 : Vec Ideal S1x128 .f32)
    (p : Fin 2000) (q : Fin 128) (r : Fin 50000)
    (e0 : ∀ k : Fin 128, x0 (ix2 p k) = A0 (ix2 r k)) (e1 : ∀ k : Fin 128, x1 (ix2 p k) = A1 (ix2 r k))
    (e2 : ∀ k : Fin 128, x2 (ix2 k q) = A2 (ix2 k q)) (e3 : ∀ k : Fin 128, x3 (ix2 k q) = A3 (ix2 k q))
    (e4 : x4 (ix2 0 q) = A4 (ix2 0 q)) :
    k0_pay1 (F := Ideal) x0 x1 x2 x3 x4 (ix2 p q)
      = Cert.Spec.comb (N := 50000) (K := 128) (M := 128) A0 A1 A2 A3 (fun j => A4 (ix2 0 j)) (ix2 r q) := by
  rw [hpay]
  show _ = Cert.Spec.eluS ((∑ k : Fin 128, A0 (ix2 r k) * A2 (ix2 k q)) + A4 (ix2 0 q) + ∑ k : Fin 128, A1 (ix2 r k) * A3 (ix2 k q))
  simp only [e0, e1, e2, e3, e4]

/-- The block indices at grid point `t`, decided over the 25 points: the two row-blocked inputs and the output are at
    row block `t`, column block 0; the weights and the bias row are at block (0, 0) at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-! Each input block read at an entry: an entry of a block sits in its array, on each axis, at the block index times
    the block's extent plus the entry's coordinate in the block. So row `p` of a row-blocked input at point `t` is row
    `2000 t + p` of its array, and the weight and bias blocks, at block index zero, are their arrays. -/

theorem iblk0_0_apply (c : Dev nD) (t : Fin cfg0.N) (p : Fin 2000) (k : Fin 128) (r : Fin 50000) (hr : r.val = t.val * 2000 + p.val) :
    (iblk0 (F := Ideal) V c 0 t : Vec Ideal S2000x128 .f32) (ix2 p k)
      = (V c (Pipeline.arrRef spec0 0) : (⟨2, ![50000, 128]⟩ : Shape).Idx → EReal) (ix2 r k) := by
  obtain ⟨f0, f1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = r.val; rw [f0, hr]; omega
  | ⟨1, _⟩ => show win0_0.index t 1 * 128 + 1 * k.val = k.val; rw [f1]; omega

theorem iblk0_1_apply (c : Dev nD) (t : Fin cfg0.N) (p : Fin 2000) (k : Fin 128) (r : Fin 50000) (hr : r.val = t.val * 2000 + p.val) :
    (iblk0 (F := Ideal) V c 1 t : Vec Ideal S2000x128 .f32) (ix2 p k)
      = (V c (Pipeline.arrRef spec0 1) : (⟨2, ![50000, 128]⟩ : Shape).Idx → EReal) (ix2 r k) := by
  obtain ⟨-, -, f0, f1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = r.val; rw [f0, hr]; omega
  | ⟨1, _⟩ => show win0_1.index t 1 * 128 + 1 * k.val = k.val; rw [f1]; omega

theorem iblk0_2_apply (c : Dev nD) (t : Fin cfg0.N) (k : Fin 128) (q : Fin 128) :
    (iblk0 (F := Ideal) V c 2 t : Vec Ideal S128x128 .f32) (ix2 k q)
      = (V c (Pipeline.arrRef spec0 2) : (⟨2, ![128, 128]⟩ : Shape).Idx → EReal) (ix2 k q) := by
  obtain ⟨-, -, -, -, f0, f1, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t 0 * 128 + 1 * k.val = k.val; rw [f0]; omega
  | ⟨1, _⟩ => show win0_2.index t 1 * 128 + 1 * q.val = q.val; rw [f1]; omega

theorem iblk0_3_apply (c : Dev nD) (t : Fin cfg0.N) (k : Fin 128) (q : Fin 128) :
    (iblk0 (F := Ideal) V c 3 t : Vec Ideal S128x128 .f32) (ix2 k q)
      = (V c (Pipeline.arrRef spec0 3) : (⟨2, ![128, 128]⟩ : Shape).Idx → EReal) (ix2 k q) := by
  obtain ⟨-, -, -, -, -, -, f0, f1, -⟩ := idx_facts0 t
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * k.val = k.val; rw [f0]; omega
  | ⟨1, _⟩ => show win0_3.index t 1 * 128 + 1 * q.val = q.val; rw [f1]; omega

theorem iblk0_4_apply (c : Dev nD) (t : Fin cfg0.N) (q : Fin 128) :
    (iblk0 (F := Ideal) V c 4 t : Vec Ideal S1x128 .f32) (ix2 0 q)
      = (V c (Pipeline.arrRef spec0 4) : (⟨2, ![1, 128]⟩ : Shape).Idx → EReal) (ix2 0 q) := by
  obtain ⟨-, -, -, -, -, -, -, -, f0, f1, -⟩ := idx_facts0 t
  unfold iblk0
  rw [View.read_apply]
  show V c (Pipeline.arrRef spec0 4) _ = V c (Pipeline.arrRef spec0 4) _
  congr 1
  funext a
  apply Fin.ext
  match a with
  | ⟨0, _⟩ => show win0_4.index t 0 * 1 + 1 * (0 : Fin 1).val = (0 : Fin 1).val; rw [f0]; omega
  | ⟨1, _⟩ => show win0_4.index t 1 * 128 + 1 * q.val = q.val; rw [f1]; omega

/-- The layer as one function of the five arrays the region finds: entry `(i, j)` is
    `elu (∑ₖ a i k · w k j + b j + ∑ₖ h i k · r k j)`, with `a`, `h`, `w`, `r` the arrays of windows 0 to 3 and `b` the one
    row of window 4's array. -/
abbrev G0 (c : Dev nD) : (⟨2, ![50000, 128]⟩ : Shape).Idx → EReal :=
  Cert.Spec.comb (N := 50000) (K := 128) (M := 128) (V c (Pipeline.arrRef spec0 0)) (V c (Pipeline.arrRef spec0 1))
    (V c (Pipeline.arrRef spec0 2)) (V c (Pipeline.arrRef spec0 3)) (fun j => V c (Pipeline.arrRef spec0 4) (ix2 0 j))

/-- What grid point `t` writes back is rows `2000 t … 2000 t + 1999` of the layer: the body's one store covers its
    whole block and its loads read the whole input blocks, so entry `(p, q)` of the block is the payload there, which is
    entry `(2000 t + p, q)` of the layer by `entry0` and the five block reads. -/
theorem flushed0_eq
    (hpay : ∀ (x0 x1 : Vec Ideal S2000x128 .f32) (x2 x3 : Vec Ideal S128x128 .f32) (x4 : Vec Ideal S1x128 .f32) (p : Fin 2000) (q : Fin 128),
        k0_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, f0, f1⟩ := idx_facts0 t
  have hN : cfg0.N = 25 := N_0
  have ht : t.val < 25 := hN ▸ t.isLt
  refine ext_2000x128 _ _ fun p q => ?_
  have hr : t.val * 2000 + p.val < 50000 := by have := p.isLt; omega
  have hemb : ((cfg0.win 5).blk t).view.emb (ix2 p q) = (ix2 (⟨t.val * 2000 + p.val, hr⟩ : Fin 50000) q : (⟨2, ![50000, 128]⟩ : Shape).Idx) := by
    funext a
    apply Fin.ext
    match a with
    | ⟨0, _⟩ => show win0_5.index t 0 * 2000 + 1 * p.val = t.val * 2000 + p.val; rw [f0]; omega
    | ⟨1, _⟩ => show win0_5.index t 1 * 128 + 1 * q.val = q.val; rw [f1]; omega
  show k0_pay1 (F := Ideal) (iblk0 V c 0 t) (iblk0 V c 1 t) (iblk0 V c 2 t) (iblk0 V c 3 t) (iblk0 V c 4 t) (ix2 p q) = G0 V c (((cfg0.win 5).blk t).view.emb (ix2 p q))
  rw [hemb]
  exact entry0 hpay (V c (Pipeline.arrRef spec0 0)) (V c (Pipeline.arrRef spec0 1)) (V c (Pipeline.arrRef spec0 2)) (V c (Pipeline.arrRef spec0 3)) (V c (Pipeline.arrRef spec0 4))
    (iblk0 V c 0 t) (iblk0 V c 1 t) (iblk0 V c 2 t) (iblk0 V c 3 t) (iblk0 V c 4 t) p q ⟨t.val * 2000 + p.val, hr⟩
    (fun k => iblk0_0_apply V c t p k _ rfl) (fun k => iblk0_1_apply V c t p k _ rfl)
    (fun k => iblk0_2_apply V c t k q) (fun k => iblk0_3_apply V c t k q) (iblk0_4_apply V c t q)

end

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- The 25 row blocks tile the 50000 rows: row `r` is in the block of point `r / 2000`, which writes back. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, f0, f1⟩ := idx_facts0 ⟨(i 0).val / 2000, hlt⟩
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [f0]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [f1]; omega

/-- THE OUTPUT ARRAY of layer 1 after its region: every point writes back its rows of the layer function and the
    blocks cover the array, so the array ends holding the layer function of the arrays the region found. -/
theorem final0_of
    (hpay : ∀ (x0 x1 : Vec Ideal S2000x128 .f32) (x2 x3 : Vec Ideal S128x128 .f32) (x4 : Vec Ideal S1x128 .f32) (p : Fin 2000) (q : Fin 128),
        k0_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (V : (c : Dev nD) → (b : Ref sig .tc) → Buf (Elt Ideal) ((c : Thread nD τ).loc b)) (c : Dev nD) :
    (dat0 (F := Ideal) V c).arrAt 5 cfg0.N
      = Cert.Spec.comb (N := 50000) (K := 128) (M := 128) (V c (Pipeline.arrRef spec0 0)) (V c (Pipeline.arrRef spec0 1))
          (V c (Pipeline.arrRef spec0 2)) (V c (Pipeline.arrRef spec0 3)) (fun j => V c (Pipeline.arrRef spec0 4) (ix2 0 j)) :=
  (dat0 (F := Ideal) V c).arrAt_eq_of_cover 5 (G0 V c) (fun t _ => flushed0_eq V hpay c t) cover0

/-! ## Layer 2: 128 features to 256 -/

/-- One entry of a row block. If row `p` of the two row-blocked inputs is row `r` of their arrays, and the weight
    and bias blocks are their arrays, then entry `(p, q)` of what the body computes is entry `(r, q)` of the layer:
    both are `elu` of the same two sums over the 128 features plus the same bias. -/
theorem entry1
    (hpay : ∀ (x0 x1 : Vec Ideal S2000x128 .f32) (x2 x3 : Vec Ideal S128x256 .f32) (x4 : Vec Ideal S1x256 .f32) (p : Fin 2000) (q : Fin 256),
        k1_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (A0 A1 : (⟨2, ![50000, 128]⟩ : Shape).Idx → EReal) (A2 A3 : (⟨2, ![128, 256]⟩ : Shape).Idx → EReal) (A4 : (⟨2, ![1, 256]⟩ : Shape).Idx → EReal)
    (x0 x1 : Vec Ideal S2000x128 .f32) (x2 x3 : Vec Ideal S128x256 .f32) (x4 : Vec Ideal S1x256 .f32)
    (p : Fin 2000) (q : Fin 256) (r : Fin 50000)
    (e0 : ∀ k : Fin 128, x0 (ix2 p k) = A0 (ix2 r k)) (e1 : ∀ k : Fin 128, x1 (ix2 p k) = A1 (ix2 r k))
    (e2 : ∀ k : Fin 128, x2 (ix2 k q) = A2 (ix2 k q)) (e3 : ∀ k : Fin 128, x3 (ix2 k q) = A3 (ix2 k q))
    (e4 : x4 (ix2 0 q) = A4 (ix2 0 q)) :
    k1_pay1 (F := Ideal) x0 x1 x2 x3 x4 (ix2 p q)
      = Cert.Spec.comb (N := 50000) (K := 128) (M := 256) A0 A1 A2 A3 (fun j => A4 (ix2 0 j)) (ix2 r q) := by
  rw [hpay]
  show _ = Cert.Spec.eluS ((∑ k : Fin 128, A0 (ix2 r k) * A2 (ix2 k q)) + A4 (ix2 0 q) + ∑ k : Fin 128, A1 (ix2 r k) * A3 (ix2 k q))
  simp only [e0, e1, e2, e3, e4]

/-- The block indices at grid point `t`, decided over the 25 points: the two row-blocked inputs and the output are at
    row block `t`, column block 0; the weights and the bias row are at block (0, 0) at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-! Each input block read at an entry: an entry of a block sits in its array, on each axis, at the block index times
    the block's extent plus the entry's coordinate in the block. So row `p` of a row-blocked input at point `t` is row
    `2000 t + p` of its array, and the weight and bias blocks, at block index zero, are their arrays. -/

theorem iblk1_0_apply (c : Dev nD) (t : Fin cfg1.N) (p : Fin 2000) (k : Fin 128) (r : Fin 50000) (hr : r.val = t.val * 2000 + p.val) :
    (iblk1 (F := Ideal) V c 0 t : Vec Ideal S2000x128 .f32) (ix2 p k)
      = (V c (Pipeline.arrRef spec1 0) : (⟨2, ![50000, 128]⟩ : Shape).Idx → EReal) (ix2 r k) := by
  obtain ⟨f0, f1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * p.val = r.val; rw [f0, hr]; omega
  | ⟨1, _⟩ => show win1_0.index t 1 * 128 + 1 * k.val = k.val; rw [f1]; omega

theorem iblk1_1_apply (c : Dev nD) (t : Fin cfg1.N) (p : Fin 2000) (k : Fin 128) (r : Fin 50000) (hr : r.val = t.val * 2000 + p.val) :
    (iblk1 (F := Ideal) V c 1 t : Vec Ideal S2000x128 .f32) (ix2 p k)
      = (V c (Pipeline.arrRef spec1 1) : (⟨2, ![50000, 128]⟩ : Shape).Idx → EReal) (ix2 r k) := by
  obtain ⟨-, -, f0, f1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 2000 + 1 * p.val = r.val; rw [f0, hr]; omega
  | ⟨1, _⟩ => show win1_1.index t 1 * 128 + 1 * k.val = k.val; rw [f1]; omega

theorem iblk1_2_apply (c : Dev nD) (t : Fin cfg1.N) (k : Fin 128) (q : Fin 256) :
    (iblk1 (F := Ideal) V c 2 t : Vec Ideal S128x256 .f32) (ix2 k q)
      = (V c (Pipeline.arrRef spec1 2) : (⟨2, ![128, 256]⟩ : Shape).Idx → EReal) (ix2 k q) := by
  obtain ⟨-, -, -, -, f0, f1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t 0 * 128 + 1 * k.val = k.val; rw [f0]; omega
  | ⟨1, _⟩ => show win1_2.index t 1 * 256 + 1 * q.val = q.val; rw [f1]; omega

theorem iblk1_3_apply (c : Dev nD) (t : Fin cfg1.N) (k : Fin 128) (q : Fin 256) :
    (iblk1 (F := Ideal) V c 3 t : Vec Ideal S128x256 .f32) (ix2 k q)
      = (V c (Pipeline.arrRef spec1 3) : (⟨2, ![128, 256]⟩ : Shape).Idx → EReal) (ix2 k q) := by
  obtain ⟨-, -, -, -, -, -, f0, f1, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t 0 * 128 + 1 * k.val = k.val; rw [f0]; omega
  | ⟨1, _⟩ => show win1_3.index t 1 * 256 + 1 * q.val = q.val; rw [f1]; omega

theorem iblk1_4_apply (c : Dev nD) (t : Fin cfg1.N) (q : Fin 256) :
    (iblk1 (F := Ideal) V c 4 t : Vec Ideal S1x256 .f32) (ix2 0 q)
      = (V c (Pipeline.arrRef spec1 4) : (⟨2, ![1, 256]⟩ : Shape).Idx → EReal) (ix2 0 q) := by
  obtain ⟨-, -, -, -, -, -, -, -, f0, f1, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (0 : Fin 1).val = (0 : Fin 1).val; rw [f0]; omega
  | ⟨1, _⟩ => show win1_4.index t 1 * 256 + 1 * q.val = q.val; rw [f1]; omega

/-- The layer as one function of the five arrays the region finds: entry `(i, j)` is
    `elu (∑ₖ a i k · w k j + b j + ∑ₖ h i k · r k j)`, with `a`, `h`, `w`, `r` the arrays of windows 0 to 3 and `b` the one
    row of window 4's array. -/
abbrev G1 (c : Dev nD) : (⟨2, ![50000, 256]⟩ : Shape).Idx → EReal :=
  Cert.Spec.comb (N := 50000) (K := 128) (M := 256) (V c (Pipeline.arrRef spec1 0)) (V c (Pipeline.arrRef spec1 1))
    (V c (Pipeline.arrRef spec1 2)) (V c (Pipeline.arrRef spec1 3)) (fun j => V c (Pipeline.arrRef spec1 4) (ix2 0 j))

/-- What grid point `t` writes back is rows `2000 t … 2000 t + 1999` of the layer: the body's one store covers its
    whole block and its loads read the whole input blocks, so entry `(p, q)` of the block is the payload there, which is
    entry `(2000 t + p, q)` of the layer by `entry1` and the five block reads. -/
theorem flushed1_eq
    (hpay : ∀ (x0 x1 : Vec Ideal S2000x128 .f32) (x2 x3 : Vec Ideal S128x256 .f32) (x4 : Vec Ideal S1x256 .f32) (p : Fin 2000) (q : Fin 256),
        k1_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  obtain ⟨-, -, -, -, -, -, -, -, -, -, f0, f1⟩ := idx_facts1 t
  have hN : cfg1.N = 25 := N_1
  have ht : t.val < 25 := hN ▸ t.isLt
  refine ext_2000x256 _ _ fun p q => ?_
  have hr : t.val * 2000 + p.val < 50000 := by have := p.isLt; omega
  have hemb : ((cfg1.win 5).blk t).view.emb (ix2 p q) = (ix2 (⟨t.val * 2000 + p.val, hr⟩ : Fin 50000) q : (⟨2, ![50000, 256]⟩ : Shape).Idx) := by
    funext a
    apply Fin.ext
    match a with
    | ⟨0, _⟩ => show win1_5.index t 0 * 2000 + 1 * p.val = t.val * 2000 + p.val; rw [f0]; omega
    | ⟨1, _⟩ => show win1_5.index t 1 * 256 + 1 * q.val = q.val; rw [f1]; omega
  show k1_pay1 (F := Ideal) (iblk1 V c 0 t) (iblk1 V c 1 t) (iblk1 V c 2 t) (iblk1 V c 3 t) (iblk1 V c 4 t) (ix2 p q) = G1 V c (((cfg1.win 5).blk t).view.emb (ix2 p q))
  rw [hemb]
  exact entry1 hpay (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) p q ⟨t.val * 2000 + p.val, hr⟩
    (fun k => iblk1_0_apply V c t p k _ rfl) (fun k => iblk1_1_apply V c t p k _ rfl)
    (fun k => iblk1_2_apply V c t k q) (fun k => iblk1_3_apply V c t k q) (iblk1_4_apply V c t q)

end

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v27).slice (win1_5.rect t)).set ↔ _
  rw [View.set_slice_whole, Rect.mem_set_unit]
  exact Iff.rfl

/-- The 25 row blocks tile the 50000 rows: row `r` is in the block of point `r / 2000`, which writes back. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have hlt : (i 0).val / 2000 < cfg1.N := by rw [hN]; omega
  obtain ⟨-, -, -, -, -, -, -, -, -, -, f0, f1⟩ := idx_facts1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [f0]; show (i 0).val / 2000 * 2000 ≤ (i 0).val ∧ (i 0).val < (i 0).val / 2000 * 2000 + 2000; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [f1]; omega

/-- THE OUTPUT ARRAY of layer 2 after its region: every point writes back its rows of the layer function and the
    blocks cover the array, so the array ends holding the layer function of the arrays the region found. -/
theorem final1_of
    (hpay : ∀ (x0 x1 : Vec Ideal S2000x128 .f32) (x2 x3 : Vec Ideal S128x256 .f32) (x4 : Vec Ideal S1x256 .f32) (p : Fin 2000) (q : Fin 256),
        k1_pay1 (F := Ideal) x0 x1 x2 x3 x4 (ix2 p q)
          = Cert.Spec.eluS ((∑ k : Fin 128, x0 (ix2 p k) * x2 (ix2 k q)) + x4 (ix2 0 q) + ∑ k : Fin 128, x1 (ix2 p k) * x3 (ix2 k q)))
    (V : (c : Dev nD) → (b : Ref sig .tc) → Buf (Elt Ideal) ((c : Thread nD τ).loc b)) (c : Dev nD) :
    (dat1 (F := Ideal) V c).arrAt 5 cfg1.N
      = Cert.Spec.comb (N := 50000) (K := 128) (M := 256) (V c (Pipeline.arrRef spec1 0)) (V c (Pipeline.arrRef spec1 1))
          (V c (Pipeline.arrRef spec1 2)) (V c (Pipeline.arrRef spec1 3)) (fun j => V c (Pipeline.arrRef spec1 4) (ix2 0 j)) :=
  (dat1 (F := Ideal) V c).arrAt_eq_of_cover 5 (G1 V c) (fun t _ => flushed1_eq V hpay c t) cover1

/-! ## Layer 3: 256 features to 128 -/

/-- One entry of a row block. If row `p` of the two row-blocked inputs is row `r` of their arrays, and the weight
    and bias blocks are their arrays, then entry `(p, q)` of what the body computes is entry `(r, q)` of the layer:
    both are `elu` of the same two sums over the 256 features plus the same bias. -/
theorem entry2
    (hpay : ∀ (x0 x1 : Vec Ideal S2000x256 .f32) (x2 x3 : Vec Ideal S256x128 .f32) (x4 : Vec Ideal S1x128 .f32) (p : Fin 2000) (q : Fin 128),
        k2_pay1 (F := Ideal) x0 x1 x2 x3 x4 (ix2 p q)
          = Cert.Spec.eluS ((∑ k : Fin 256, x0 (ix2 p k) * x2 (ix2 k q)) + x4 (ix2 0 q) + ∑ k : Fin 256, x1 (ix2 p k) * x3 (ix2 k q)))
    (A0 A1 : (⟨2, ![50000, 256]⟩ : Shape).Idx → EReal) (A2 A3 : (⟨2, ![256, 128]⟩ : Shape).Idx → EReal) (A4 : (⟨2, ![1, 128]⟩ : Shape).Idx → EReal)
    (x0 x1 : Vec Ideal S2000x256 .f32) (x2 x3 : Vec Ideal S256x128 .f32) (x4 : Vec Ideal S1x128 .f32)
    (p : Fin 2000) (q : Fin 128) (r : Fin 50000)
    (e0 : ∀ k : Fin 256, x0 (ix2 p k) = A0 (ix2 r k)) (e1 : ∀ k : Fin 256, x1 (ix2 p k) = A1 (ix2 r k))
    (e2 : ∀ k : Fin 256, x2 (ix2 k q) = A2 (ix2 k q)) (e3 : ∀ k : Fin 256, x3 (ix2 k q) = A3 (ix2 k q))
    (e4 : x4 (ix2 0 q) = A4 (ix2 0 q)) :
    k2_pay1 (F := Ideal) x0 x1 x2 x3 x4 (ix2 p q)
      = Cert.Spec.comb (N := 50000) (K := 256) (M := 128) A0 A1 A2 A3 (fun j => A4 (ix2 0 j)) (ix2 r q) := by
  rw [hpay]
  show _ = Cert.Spec.eluS ((∑ k : Fin 256, A0 (ix2 r k) * A2 (ix2 k q)) + A4 (ix2 0 q) + ∑ k : Fin 256, A1 (ix2 r k) * A3 (ix2 k q))
  simp only [e0, e1, e2, e3, e4]

/-- The block indices at grid point `t`, decided over the 25 points: the two row-blocked inputs and the output are at
    row block `t`, column block 0; the weights and the bias row are at block (0, 0) at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-! Each input block read at an entry: an entry of a block sits in its array, on each axis, at the block index times
    the block's extent plus the entry's coordinate in the block. So row `p` of a row-blocked input at point `t` is row
    `2000 t + p` of its array, and the weight and bias blocks, at block index zero, are their arrays. -/

theorem iblk2_0_apply (c : Dev nD) (t : Fin cfg2.N) (p : Fin 2000) (k : Fin 256) (r : Fin 50000) (hr : r.val = t.val * 2000 + p.val) :
    (iblk2 (F := Ideal) V c 0 t : Vec Ideal S2000x256 .f32) (ix2 p k)
      = (V c (Pipeline.arrRef spec2 0) : (⟨2, ![50000, 256]⟩ : Shape).Idx → EReal) (ix2 r k) := by
  obtain ⟨f0, f1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t 0 * 2000 + 1 * p.val = r.val; rw [f0, hr]; omega
  | ⟨1, _⟩ => show win2_0.index t 1 * 256 + 1 * k.val = k.val; rw [f1]; omega

theorem iblk2_1_apply (c : Dev nD) (t : Fin cfg2.N) (p : Fin 2000) (k : Fin 256) (r : Fin 50000) (hr : r.val = t.val * 2000 + p.val) :
    (iblk2 (F := Ideal) V c 1 t : Vec Ideal S2000x256 .f32) (ix2 p k)
      = (V c (Pipeline.arrRef spec2 1) : (⟨2, ![50000, 256]⟩ : Shape).Idx → EReal) (ix2 r k) := by
  obtain ⟨-, -, f0, f1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t 0 * 2000 + 1 * p.val = r.val; rw [f0, hr]; omega
  | ⟨1, _⟩ => show win2_1.index t 1 * 256 + 1 * k.val = k.val; rw [f1]; omega

theorem iblk2_2_apply (c : Dev nD) (t : Fin cfg2.N) (k : Fin 256) (q : Fin 128) :
    (iblk2 (F := Ideal) V c 2 t : Vec Ideal S256x128 .f32) (ix2 k q)
      = (V c (Pipeline.arrRef spec2 2) : (⟨2, ![256, 128]⟩ : Shape).Idx → EReal) (ix2 k q) := by
  obtain ⟨-, -, -, -, f0, f1, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t 0 * 256 + 1 * k.val = k.val; rw [f0]; omega
  | ⟨1, _⟩ => show win2_2.index t 1 * 128 + 1 * q.val = q.val; rw [f1]; omega

theorem iblk2_3_apply (c : Dev nD) (t : Fin cfg2.N) (k : Fin 256) (q : Fin 128) :
    (iblk2 (F := Ideal) V c 3 t : Vec Ideal S256x128 .f32) (ix2 k q)
      = (V c (Pipeline.arrRef spec2 3) : (⟨2, ![256, 128]⟩ : Shape).Idx → EReal) (ix2 k q) := by
  obtain ⟨-, -, -, -, -, -, f0, f1, -⟩ := idx_facts2 t
  unfold iblk2
  rw [View.read_apply]
  show V c (Pipeline.arrRef spec2 3) _ = V c (Pipeline.arrRef spec2 3) _
  congr 1
  funext a
  apply Fin.ext
  match a with
  | ⟨0, _⟩ => show win2_3.index t 0 * 256 + 1 * k.val = k.val; rw [f0]; omega
  | ⟨1, _⟩ => show win2_3.index t 1 * 128 + 1 * q.val = q.val; rw [f1]; omega

theorem iblk2_4_apply (c : Dev nD) (t : Fin cfg2.N) (q : Fin 128) :
    (iblk2 (F := Ideal) V c 4 t : Vec Ideal S1x128 .f32) (ix2 0 q)
      = (V c (Pipeline.arrRef spec2 4) : (⟨2, ![1, 128]⟩ : Shape).Idx → EReal) (ix2 0 q) := by
  obtain ⟨-, -, -, -, -, -, -, -, f0, f1, -⟩ := idx_facts2 t
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (0 : Fin 1).val = (0 : Fin 1).val; rw [f0]; omega
  | ⟨1, _⟩ => show win2_4.index t 1 * 128 + 1 * q.val = q.val; rw [f1]; omega

/-- The layer as one function of the five arrays the region finds: entry `(i, j)` is
    `elu (∑ₖ a i k · w k j + b j + ∑ₖ h i k · r k j)`, with `a`, `h`, `w`, `r` the arrays of windows 0 to 3 and `b` the one
    row of window 4's array. -/
abbrev G2 (c : Dev nD) : (⟨2, ![50000, 128]⟩ : Shape).Idx → EReal :=
  Cert.Spec.comb (N := 50000) (K := 256) (M := 128) (V c (Pipeline.arrRef spec2 0)) (V c (Pipeline.arrRef spec2 1))
    (V c (Pipeline.arrRef spec2 2)) (V c (Pipeline.arrRef spec2 3)) (fun j => V c (Pipeline.arrRef spec2 4) (ix2 0 j))

/-- What grid point `t` writes back is rows `2000 t … 2000 t + 1999` of the layer: the body's one store covers its
    whole block and its loads read the whole input blocks, so entry `(p, q)` of the block is the payload there, which is
    entry `(2000 t + p, q)` of the layer by `entry2` and the five block reads. -/
theorem flushed2_eq
    (hpay : ∀ (x0 x1 : Vec Ideal S2000x256 .f32) (x2 x3 : Vec Ideal S256x128 .f32) (x4 : Vec Ideal S1x128 .f32) (p : Fin 2000) (q : Fin 128),
        k2_pay1 (F := Ideal) x0 x1 x2 x3 x4 (ix2 p q)
          = Cert.Spec.eluS ((∑ k : Fin 256, x0 (ix2 p k) * x2 (ix2 k q)) + x4 (ix2 0 q) + ∑ k : Fin 256, x1 (ix2 p k) * x3 (ix2 k q)))
    (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x128) hz, View.ld_unit_zero (S := S1x128) hz]
  obtain ⟨-, -, -, -, -, -, -, -, -, -, f0, f1⟩ := idx_facts2 t
  have hN : cfg2.N = 25 := N_2
  have ht : t.val < 25 := hN ▸ t.isLt
  refine ext_2000x128 _ _ fun p q => ?_
  have hr : t.val * 2000 + p.val < 50000 := by have := p.isLt; omega
  have hemb : ((cfg2.win 5).blk t).view.emb (ix2 p q) = (ix2 (⟨t.val * 2000 + p.val, hr⟩ : Fin 50000) q : (⟨2, ![50000, 128]⟩ : Shape).Idx) := by
    funext a
    apply Fin.ext
    match a with
    | ⟨0, _⟩ => show win2_5.index t 0 * 2000 + 1 * p.val = t.val * 2000 + p.val; rw [f0]; omega
    | ⟨1, _⟩ => show win2_5.index t 1 * 128 + 1 * q.val = q.val; rw [f1]; omega
  show k2_pay1 (F := Ideal) (iblk2 V c 0 t) (iblk2 V c 1 t) (iblk2 V c 2 t) (iblk2 V c 3 t) (iblk2 V c 4 t) (ix2 p q) = G2 V c (((cfg2.win 5).blk t).view.emb (ix2 p q))
  rw [hemb]
  exact entry2 hpay (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) p q ⟨t.val * 2000 + p.val, hr⟩
    (fun k => iblk2_0_apply V c t p k _ rfl) (fun k => iblk2_1_apply V c t p k _ rfl)
    (fun k => iblk2_2_apply V c t k q) (fun k => iblk2_3_apply V c t k q) (iblk2_4_apply V c t q)

end

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v39).slice (win2_5.rect t)).set ↔ _
  rw [View.set_slice_whole, Rect.mem_set_unit]
  exact Iff.rfl

/-- The 25 row blocks tile the 50000 rows: row `r` is in the block of point `r / 2000`, which writes back. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, -, -, -, -, -, -, f0, f1⟩ := idx_facts2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [f0]; show (i 0).val / 2000 * 2000 ≤ (i 0).val ∧ (i 0).val < (i 0).val / 2000 * 2000 + 2000; omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [f1]; omega

/-- THE OUTPUT ARRAY of layer 3 after its region: every point writes back its rows of the layer function and the
    blocks cover the array, so the array ends holding the layer function of the arrays the region found. -/
theorem final2_of
    (hpay : ∀ (x0 x1 : Vec Ideal S2000x256 .f32) (x2 x3 : Vec Ideal S256x128 .f32) (x4 : Vec Ideal S1x128 .f32) (p : Fin 2000) (q : Fin 128),
        k2_pay1 (F := Ideal) x0 x1 x2 x3 x4 (ix2 p q)
          = Cert.Spec.eluS ((∑ k : Fin 256, x0 (ix2 p k) * x2 (ix2 k q)) + x4 (ix2 0 q) + ∑ k : Fin 256, x1 (ix2 p k) * x3 (ix2 k q)))
    (V : (c : Dev nD) → (b : Ref sig .tc) → Buf (Elt Ideal) ((c : Thread nD τ).loc b)) (c : Dev nD) :
    (dat2 (F := Ideal) V c).arrAt 5 cfg2.N
      = Cert.Spec.comb (N := 50000) (K := 256) (M := 128) (V c (Pipeline.arrRef spec2 0)) (V c (Pipeline.arrRef spec2 1))
          (V c (Pipeline.arrRef spec2 2)) (V c (Pipeline.arrRef spec2 3)) (fun j => V c (Pipeline.arrRef spec2 4) (ix2 0 j)) :=
  (dat2 (F := Ideal) V c).arrAt_eq_of_cover 5 (G2 V c) (fun t _ => flushed2_eq V hpay c t) cover2

end Cert.KernelIdeal.Blocks

end
-- ==== Proof.RefRun.lean ====
/-
  The reference program's run.

  @main of the reference is a straight line of host operations once its three calls of @elu are unfolded at their
  call sites: 130 operations, listed here in program order. One call of @elu is fifteen operations over that call's
  own buffers — the zero constant, its broadcast and the comparison `z > 0`, twice; the scalar zero; @_where's three
  (the scalar converted to its own type, which is the identity, its broadcast, the select that puts zero where
  `z > 0`); `expm1` of that; the constant one, its broadcast, the product; and @_where_0's single select between `z`
  and the product. The line falls into four consecutive pieces: one per layer of the network (38 operations each:
  the index arithmetic on the edge table, gather, scatter-add, the two matrix products, the bias, the sum, @elu) and
  the pooling (16). Each piece is read back on its own — what its result buffer holds afterwards as a function of the
  buffers it reads — and equals the corresponding whole-array function of Spec by unfolding; the pieces compose
  because a later piece reads of an earlier one only its result buffer, and no operation writes an argument.
-/
import proofs.«119849_j55052890800550_1_alg».proof.Proof.Gen.ReferenceIdeal
import proofs.«119849_j55052890800550_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, statements %0 … %20: the edge table's two rows, the source row with negative numbers counted from the end,
    gather of the node rows, scatter-add into the destination rows, the two products, bias and sum, then @elu (call record `main_call0`). -/
abbrev ops1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v13 main_arg3 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v14 main_v16 main_v17 (addf : (⟨S50000x128, .f32⟩ : BufTy).Contents (Elt F) → (⟨S50000x128, .f32⟩ : BufTy).Contents (Elt F) → (⟨S50000x128, .f32⟩ : BufTy).Contents (Elt F)),
    StableHlo.binary main_arg0 main_arg5 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v17 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (TRef.of main_v19 : TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (TRef.of main_v19 : TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (TRef.of main_v19 : TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (TRef.of main_v19 : TRef sig ⟨S50000x128, .f32⟩) main_call0.v7 main_call0.call1.v0 select ]

/-- Layer 2, statements %21 … %41: the same over what %20 holds, 128 to 256 features, @elu_1 (call record `main_call1`). -/
abbrev ops2 : List (HloOp τ sig (Elt F)) :=
  [ StableHlo.unary main_arg1 main_v21 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v21 main_v22 rfl shapeCasts_S1x800000_S800000,
    StableHlo.unary main_arg1 main_v23 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v23 main_v24 rfl shapeCasts_S1x800000_S800000,
    StableHlo.nullary main_c_1 (constantI S_ 32 0#32),
    StableHlo.unary main_c_1 main_v25 (broadcastInDim S800000 ![] bcast_S_S800000 : (⟨S_, .i32⟩ : BufTy).Contents (Elt F) → (⟨S800000, .i32⟩ : BufTy).Contents (Elt F)),
    StableHlo.binary main_v22 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v27 (broadcastInDim S800000 ![] bcast_S_S800000 : (⟨S_, .i32⟩ : BufTy).Contents (Elt F) → (⟨S800000, .i32⟩ : BufTy).Contents (Elt F)),
    StableHlo.binary main_v22 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_v22 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v20 main_v30 main_v31 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v32 (broadcastInDim S50000x128 ![] bcast_S_S50000x128 : (⟨S_, .f32⟩ : BufTy).Contents (Elt F) → (⟨S50000x128, .f32⟩ : BufTy).Contents (Elt F)),
    StableHlo.unary main_v24 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v34 main_arg6 main_v35 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)),
    StableHlo.binary main_v20 main_arg8 main_v39 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v38 main_v39 main_v40 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (TRef.of main_v40 : TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (TRef.of main_v40 : TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (TRef.of main_v40 : TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (TRef.of main_v40 : TRef sig ⟨S50000x256, .f32⟩) main_call1.v7 main_call1.call1.v0 select ]

/-- Layer 3, statements %42 … %62: the same over what %41 holds, 256 to 128 features, @elu (call record `main_call2`). -/
abbrev ops3 : List (HloOp τ sig (Elt F)) :=
  [ StableHlo.unary main_arg1 main_v42 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v42 main_v43 rfl shapeCasts_S1x800000_S800000,
    StableHlo.unary main_arg1 main_v44 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v44 main_v45 rfl shapeCasts_S1x800000_S800000,
    StableHlo.nullary main_c_4 (constantI S_ 32 0#32),
    StableHlo.unary main_c_4 main_v46 (broadcastInDim S800000 ![] bcast_S_S800000 : (⟨S_, .i32⟩ : BufTy).Contents (Elt F) → (⟨S800000, .i32⟩ : BufTy).Contents (Elt F)),
    StableHlo.binary main_v43 main_v46 main_v47 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v48 (broadcastInDim S800000 ![] bcast_S_S800000 : (⟨S_, .i32⟩ : BufTy).Contents (Elt F) → (⟨S800000, .i32⟩ : BufTy).Contents (Elt F)),
    StableHlo.binary main_v43 main_v48 main_v49 (addi : (⟨S800000, .i32⟩ : BufTy).Contents (Elt F) → (⟨S800000, .i32⟩ : BufTy).Contents (Elt F) → (⟨S800000, .i32⟩ : BufTy).Contents (Elt F)),
    StableHlo.ternary main_v47 main_v49 main_v43 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v50 main_v51 (broadcastInDim S800000x1 ![0] bcast_S800000_S800000x1_0 : (⟨S800000, .i32⟩ : BufTy).Contents (Elt F) → (⟨S800000x1, .i32⟩ : BufTy).Contents (Elt F)),
    StableHlo.binary main_v41 main_v51 main_v52 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_6 (constant S_ .f32 0x00000000#32),
    StableHlo.unary main_cst_6 main_v53 (broadcastInDim S50000x256 ![] bcast_S_S50000x256 : (⟨S_, .f32⟩ : BufTy).Contents (Elt F) → (⟨S50000x256, .f32⟩ : BufTy).Contents (Elt F)),
    StableHlo.unary main_v45 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v55 main_arg9 main_v56 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (addf : (⟨S50000x128, .f32⟩ : BufTy).Contents (Elt F) → (⟨S50000x128, .f32⟩ : BufTy).Contents (Elt F) → (⟨S50000x128, .f32⟩ : BufTy).Contents (Elt F)),
    StableHlo.binary main_v41 main_arg11 main_v60 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.binary main_v59 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v61 : TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (TRef.of main_v61 : TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (TRef.of main_v61 : TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (TRef.of main_v61 : TRef sig ⟨S50000x128, .f32⟩) main_call2.v7 main_call2.call1.v0 select ]

/-- The pooling, statements %cst_7 … %74: the rows summed by graph number, the node counts, at least one, the quotient. -/
abbrev ops4 : List (HloOp τ sig (Elt F)) :=
  [ StableHlo.nullary main_cst_7 (constant S_ .f32 0x00000000#32),
    StableHlo.unary main_cst_7 main_v63 (broadcastInDim S64x128 ![] bcast_S_S64x128 : (⟨S_, .f32⟩ : BufTy).Contents (Elt F) → (⟨S64x128, .f32⟩ : BufTy).Contents (Elt F)),
    StableHlo.unary main_arg2 main_v64 (broadcastInDim S50000x1 ![0] bcast_S50000_S50000x1_0 : (⟨S50000, .i32⟩ : BufTy).Contents (Elt F) → (⟨S50000x1, .i32⟩ : BufTy).Contents (Elt F)),
    StableHlo.ternary main_v63 main_v64 main_v62 main_v65 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_8 (constant S_ .f32 0x3F800000#32),
    StableHlo.unary main_cst_8 main_v66 (broadcastInDim S50000 ![] bcast_S_S50000 : (⟨S_, .f32⟩ : BufTy).Contents (Elt F) → (⟨S50000, .f32⟩ : BufTy).Contents (Elt F)),
    StableHlo.nullary main_cst_9 (constant S_ .f32 0x00000000#32),
    StableHlo.unary main_cst_9 main_v67 (broadcastInDim S64 ![] bcast_S_S64 : (⟨S_, .f32⟩ : BufTy).Contents (Elt F) → (⟨S64, .f32⟩ : BufTy).Contents (Elt F)),
    StableHlo.unary main_arg2 main_v68 (broadcastInDim S50000x1 ![0] bcast_S50000_S50000x1_0 : (⟨S50000, .i32⟩ : BufTy).Contents (Elt F) → (⟨S50000x1, .i32⟩ : BufTy).Contents (Elt F)),
    StableHlo.ternary main_v67 main_v68 main_v66 main_v69 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_10 (constant S_ .f32 0x3F800000#32),
    StableHlo.unary main_cst_10 main_v70 (broadcastInDim S64 ![] bcast_S_S64 : (⟨S_, .f32⟩ : BufTy).Contents (Elt F) → (⟨S64, .f32⟩ : BufTy).Contents (Elt F)),
    StableHlo.binary main_v69 main_v70 main_v71 (maximumf : (⟨S64, .f32⟩ : BufTy).Contents (Elt F) → (⟨S64, .f32⟩ : BufTy).Contents (Elt F) → (⟨S64, .f32⟩ : BufTy).Contents (Elt F)),
    StableHlo.unary main_v71 main_v72 (broadcastInDim S64x1 ![0] bcast_S64_S64x1_0 : (⟨S64, .f32⟩ : BufTy).Contents (Elt F) → (⟨S64x1, .f32⟩ : BufTy).Contents (Elt F)),
    StableHlo.unary main_v72 main_v73 (broadcastInDim S64x128 ![0, 1] bcast_S64x1_S64x128_0_1 : (⟨S64x1, .f32⟩ : BufTy).Contents (Elt F) → (⟨S64x128, .f32⟩ : BufTy).Contents (Elt F)),
    StableHlo.binary main_v65 main_v73 main_v74 (Host.divf : (⟨S64x128, .f32⟩ : BufTy).Contents (Elt F) → (⟨S64x128, .f32⟩ : BufTy).Contents (Elt F) → (⟨S64x128, .f32⟩ : BufTy).Contents (Elt F)) ]

/-- @main's 130 operations, in order: the four pieces one after the other. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v13 main_arg3 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v14 main_v16 main_v17 (addf : (⟨S50000x128, .f32⟩ : BufTy).Contents (Elt F) → (⟨S50000x128, .f32⟩ : BufTy).Contents (Elt F) → (⟨S50000x128, .f32⟩ : BufTy).Contents (Elt F)),
    StableHlo.binary main_arg0 main_arg5 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v17 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (TRef.of main_v19 : TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (TRef.of main_v19 : TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (TRef.of main_v19 : TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (TRef.of main_v19 : TRef sig ⟨S50000x128, .f32⟩) main_call0.v7 main_call0.call1.v0 select,
    StableHlo.unary main_arg1 main_v21 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v21 main_v22 rfl shapeCasts_S1x800000_S800000,
    StableHlo.unary main_arg1 main_v23 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v23 main_v24 rfl shapeCasts_S1x800000_S800000,
    StableHlo.nullary main_c_1 (constantI S_ 32 0#32),
    StableHlo.unary main_c_1 main_v25 (broadcastInDim S800000 ![] bcast_S_S800000 : (⟨S_, .i32⟩ : BufTy).Contents (Elt F) → (⟨S800000, .i32⟩ : BufTy).Contents (Elt F)),
    StableHlo.binary main_v22 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v27 (broadcastInDim S800000 ![] bcast_S_S800000 : (⟨S_, .i32⟩ : BufTy).Contents (Elt F) → (⟨S800000, .i32⟩ : BufTy).Contents (Elt F)),
    StableHlo.binary main_v22 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_v22 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v20 main_v30 main_v31 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v32 (broadcastInDim S50000x128 ![] bcast_S_S50000x128 : (⟨S_, .f32⟩ : BufTy).Contents (Elt F) → (⟨S50000x128, .f32⟩ : BufTy).Contents (Elt F)),
    StableHlo.unary main_v24 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v34 main_arg6 main_v35 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)),
    StableHlo.binary main_v20 main_arg8 main_v39 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v38 main_v39 main_v40 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (TRef.of main_v40 : TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (TRef.of main_v40 : TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (TRef.of main_v40 : TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (TRef.of main_v40 : TRef sig ⟨S50000x256, .f32⟩) main_call1.v7 main_call1.call1.v0 select,
    StableHlo.unary main_arg1 main_v42 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v42 main_v43 rfl shapeCasts_S1x800000_S800000,
    StableHlo.unary main_arg1 main_v44 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v44 main_v45 rfl shapeCasts_S1x800000_S800000,
    StableHlo.nullary main_c_4 (constantI S_ 32 0#32),
    StableHlo.unary main_c_4 main_v46 (broadcastInDim S800000 ![] bcast_S_S800000 : (⟨S_, .i32⟩ : BufTy).Contents (Elt F) → (⟨S800000, .i32⟩ : BufTy).Contents (Elt F)),
    StableHlo.binary main_v43 main_v46 main_v47 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v48 (broadcastInDim S800000 ![] bcast_S_S800000 : (⟨S_, .i32⟩ : BufTy).Contents (Elt F) → (⟨S800000, .i32⟩ : BufTy).Contents (Elt F)),
    StableHlo.binary main_v43 main_v48 main_v49 (addi : (⟨S800000, .i32⟩ : BufTy).Contents (Elt F) → (⟨S800000, .i32⟩ : BufTy).Contents (Elt F) → (⟨S800000, .i32⟩ : BufTy).Contents (Elt F)),
    StableHlo.ternary main_v47 main_v49 main_v43 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v50 main_v51 (broadcastInDim S800000x1 ![0] bcast_S800000_S800000x1_0 : (⟨S800000, .i32⟩ : BufTy).Contents (Elt F) → (⟨S800000x1, .i32⟩ : BufTy).Contents (Elt F)),
    StableHlo.binary main_v41 main_v51 main_v52 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_6 (constant S_ .f32 0x00000000#32),
    StableHlo.unary main_cst_6 main_v53 (broadcastInDim S50000x256 ![] bcast_S_S50000x256 : (⟨S_, .f32⟩ : BufTy).Contents (Elt F) → (⟨S50000x256, .f32⟩ : BufTy).Contents (Elt F)),
    StableHlo.unary main_v45 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v55 main_arg9 main_v56 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (addf : (⟨S50000x128, .f32⟩ : BufTy).Contents (Elt F) → (⟨S50000x128, .f32⟩ : BufTy).Contents (Elt F) → (⟨S50000x128, .f32⟩ : BufTy).Contents (Elt F)),
    StableHlo.binary main_v41 main_arg11 main_v60 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.binary main_v59 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v61 : TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (TRef.of main_v61 : TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (TRef.of main_v61 : TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (TRef.of main_v61 : TRef sig ⟨S50000x128, .f32⟩) main_call2.v7 main_call2.call1.v0 select,
    StableHlo.nullary main_cst_7 (constant S_ .f32 0x00000000#32),
    StableHlo.unary main_cst_7 main_v63 (broadcastInDim S64x128 ![] bcast_S_S64x128 : (⟨S_, .f32⟩ : BufTy).Contents (Elt F) → (⟨S64x128, .f32⟩ : BufTy).Contents (Elt F)),
    StableHlo.unary main_arg2 main_v64 (broadcastInDim S50000x1 ![0] bcast_S50000_S50000x1_0 : (⟨S50000, .i32⟩ : BufTy).Contents (Elt F) → (⟨S50000x1, .i32⟩ : BufTy).Contents (Elt F)),
    StableHlo.ternary main_v63 main_v64 main_v62 main_v65 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_8 (constant S_ .f32 0x3F800000#32),
    StableHlo.unary main_cst_8 main_v66 (broadcastInDim S50000 ![] bcast_S_S50000 : (⟨S_, .f32⟩ : BufTy).Contents (Elt F) → (⟨S50000, .f32⟩ : BufTy).Contents (Elt F)),
    StableHlo.nullary main_cst_9 (constant S_ .f32 0x00000000#32),
    StableHlo.unary main_cst_9 main_v67 (broadcastInDim S64 ![] bcast_S_S64 : (⟨S_, .f32⟩ : BufTy).Contents (Elt F) → (⟨S64, .f32⟩ : BufTy).Contents (Elt F)),
    StableHlo.unary main_arg2 main_v68 (broadcastInDim S50000x1 ![0] bcast_S50000_S50000x1_0 : (⟨S50000, .i32⟩ : BufTy).Contents (Elt F) → (⟨S50000x1, .i32⟩ : BufTy).Contents (Elt F)),
    StableHlo.ternary main_v67 main_v68 main_v66 main_v69 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_10 (constant S_ .f32 0x3F800000#32),
    StableHlo.unary main_cst_10 main_v70 (broadcastInDim S64 ![] bcast_S_S64 : (⟨S_, .f32⟩ : BufTy).Contents (Elt F) → (⟨S64, .f32⟩ : BufTy).Contents (Elt F)),
    StableHlo.binary main_v69 main_v70 main_v71 (maximumf : (⟨S64, .f32⟩ : BufTy).Contents (Elt F) → (⟨S64, .f32⟩ : BufTy).Contents (Elt F) → (⟨S64, .f32⟩ : BufTy).Contents (Elt F)),
    StableHlo.unary main_v71 main_v72 (broadcastInDim S64x1 ![0] bcast_S64_S64x1_0 : (⟨S64, .f32⟩ : BufTy).Contents (Elt F) → (⟨S64x1, .f32⟩ : BufTy).Contents (Elt F)),
    StableHlo.unary main_v72 main_v73 (broadcastInDim S64x128 ![0, 1] bcast_S64x1_S64x128_0_1 : (⟨S64x1, .f32⟩ : BufTy).Contents (Elt F) → (⟨S64x128, .f32⟩ : BufTy).Contents (Elt F)),
    StableHlo.binary main_v65 main_v73 main_v74 (Host.divf : (⟨S64x128, .f32⟩ : BufTy).Contents (Elt F) → (⟨S64x128, .f32⟩ : BufTy).Contents (Elt F) → (⟨S64x128, .f32⟩ : BufTy).Contents (Elt F)) ]

theorem ops_split : (ops : List (HloOp τ sig (Elt F))) = ops1 ++ (ops2 ++ (ops3 ++ ops4)) := rfl

-- 130 binds re-associated, one level of recursion per statement
set_option maxRecDepth 8192 in
/-- @main is that straight line: the functions' bodies substituted at their calls and the call records read at their
    fields, both sides are one chain of `hlo` steps once sequencing is re-associated. -/
theorem main_eq (c : Dev nD) : main (F := F) c = seq ops := by
  simp only [main, main_part0, main_part1, fn_elu.body, fn_elu_1.body, fn_where.body, fn_where_0.body, fn_where_2.body,
    fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., unary_bufs_sub ..,
    binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

/-- From any memory with zero counters every weakly fair execution of @main terminates, and every TensorCore buffer
    ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

attribute [local irreducible] Host.gather Host.scatterAdd Host.expm1 Host.divf in
/-- Layer 1: the first 38 operations leave at %20 the first layer of the network on the launch arguments. -/
theorem layer1_eq (V : Valuation τ sig (Elt F)) :
    after ops1 V (main_v20 : DevRef τ sig)
      = Cert.Spec.h1 (V (main_arg0 : DevRef τ sig)) (V (main_arg1 : DevRef τ sig)) (V (main_arg3 : DevRef τ sig)) (V (main_arg4 : DevRef τ sig)) (V (main_arg5 : DevRef τ sig)) := by
  after_results_simp
  rfl

attribute [local irreducible] Host.gather Host.scatterAdd Host.expm1 Host.divf in
/-- Layer 2: the next 38 operations leave at %41 the second layer on what %20 holds. -/
theorem layer2_eq (V : Valuation τ sig (Elt F)) :
    after ops2 V (main_v41 : DevRef τ sig)
      = Cert.Spec.h2 (V (main_v20 : DevRef τ sig)) (V (main_arg1 : DevRef τ sig)) (V (main_arg6 : DevRef τ sig)) (V (main_arg7 : DevRef τ sig)) (V (main_arg8 : DevRef τ sig)) := by
  after_results_simp
  rfl

attribute [local irreducible] Host.gather Host.scatterAdd Host.expm1 Host.divf in
/-- Layer 3: the next 38 operations leave at %62 the third layer on what %41 holds. -/
theorem layer3_eq (V : Valuation τ sig (Elt F)) :
    after ops3 V (main_v62 : DevRef τ sig)
      = Cert.Spec.h3 (V (main_v41 : DevRef τ sig)) (V (main_arg1 : DevRef τ sig)) (V (main_arg9 : DevRef τ sig)) (V (main_arg10 : DevRef τ sig)) (V (main_arg11 : DevRef τ sig)) := by
  after_results_simp
  rfl

attribute [local irreducible] Host.gather Host.scatterAdd Host.expm1 Host.divf in
/-- The last 16 operations leave at %74 the per-graph mean of what %62 holds. -/
theorem pool_eq (V : Valuation τ sig (Elt F)) :
    after ops4 V (main_v74 : DevRef τ sig) = Cert.Spec.pool (V (main_v62 : DevRef τ sig)) (V (main_arg2 : DevRef τ sig)) := by
  after_results_simp
  rfl

/-! No operation of a layer writes an argument buffer: each argument read after a layer is the launch's. -/

theorem keep1_arg1 (V : Valuation τ sig (Elt F)) : after ops1 V (main_arg1 : DevRef τ sig) = V (main_arg1 : DevRef τ sig) := by after_results_simp
theorem keep1_arg2 (V : Valuation τ sig (Elt F)) : after ops1 V (main_arg2 : DevRef τ sig) = V (main_arg2 : DevRef τ sig) := by after_results_simp
theorem keep1_arg6 (V : Valuation τ sig (Elt F)) : after ops1 V (main_arg6 : DevRef τ sig) = V (main_arg6 : DevRef τ sig) := by after_results_simp
theorem keep1_arg7 (V : Valuation τ sig (Elt F)) : after ops1 V (main_arg7 : DevRef τ sig) = V (main_arg7 : DevRef τ sig) := by after_results_simp
theorem keep1_arg8 (V : Valuation τ sig (Elt F)) : after ops1 V (main_arg8 : DevRef τ sig) = V (main_arg8 : DevRef τ sig) := by after_results_simp
theorem keep1_arg9 (V : Valuation τ sig (Elt F)) : after ops1 V (main_arg9 : DevRef τ sig) = V (main_arg9 : DevRef τ sig) := by after_results_simp
theorem keep1_arg10 (V : Valuation τ sig (Elt F)) : after ops1 V (main_arg10 : DevRef τ sig) = V (main_arg10 : DevRef τ sig) := by after_results_simp
theorem keep1_arg11 (V : Valuation τ sig (Elt F)) : after ops1 V (main_arg11 : DevRef τ sig) = V (main_arg11 : DevRef τ sig) := by after_results_simp
theorem keep2_arg1 (V : Valuation τ sig (Elt F)) : after ops2 V (main_arg1 : DevRef τ sig) = V (main_arg1 : DevRef τ sig) := by after_results_simp
theorem keep2_arg2 (V : Valuation τ sig (Elt F)) : after ops2 V (main_arg2 : DevRef τ sig) = V (main_arg2 : DevRef τ sig) := by after_results_simp
theorem keep2_arg9 (V : Valuation τ sig (Elt F)) : after ops2 V (main_arg9 : DevRef τ sig) = V (main_arg9 : DevRef τ sig) := by after_results_simp
theorem keep2_arg10 (V : Valuation τ sig (Elt F)) : after ops2 V (main_arg10 : DevRef τ sig) = V (main_arg10 : DevRef τ sig) := by after_results_simp
theorem keep2_arg11 (V : Valuation τ sig (Elt F)) : after ops2 V (main_arg11 : DevRef τ sig) = V (main_arg11 : DevRef τ sig) := by after_results_simp
theorem keep3_arg2 (V : Valuation τ sig (Elt F)) : after ops3 V (main_arg2 : DevRef τ sig) = V (main_arg2 : DevRef τ sig) := by after_results_simp

/-- The whole line: %74 ends at the network of Spec on the twelve launch arguments — the four pieces composed,
    each later piece reading the earlier one's result buffer and otherwise only arguments. -/
theorem out_eq (V : Valuation τ sig (Elt F)) :
    after ops V (main_v74 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_split, after_append, after_append, after_append, pool_eq, layer3_eq, layer2_eq, layer1_eq]
  rw [keep3_arg2, keep2_arg2, keep2_arg1, keep2_arg9, keep2_arg10, keep2_arg11, keep1_arg2, keep1_arg1, keep1_arg9, keep1_arg10, keep1_arg11, keep1_arg6, keep1_arg7, keep1_arg8]
  rfl

/-! No operation of the line writes an argument buffer. -/

theorem arg0_eq (V : Valuation τ sig (Elt F)) : after ops V (main_arg0 : DevRef τ sig) = V (main_arg0 : DevRef τ sig) := by after_results_simp
theorem arg1_eq (V : Valuation τ sig (Elt F)) : after ops V (main_arg1 : DevRef τ sig) = V (main_arg1 : DevRef τ sig) := by after_results_simp
theorem arg2_eq (V : Valuation τ sig (Elt F)) : after ops V (main_arg2 : DevRef τ sig) = V (main_arg2 : DevRef τ sig) := by after_results_simp
theorem arg3_eq (V : Valuation τ sig (Elt F)) : after ops V (main_arg3 : DevRef τ sig) = V (main_arg3 : DevRef τ sig) := by after_results_simp
theorem arg4_eq (V : Valuation τ sig (Elt F)) : after ops V (main_arg4 : DevRef τ sig) = V (main_arg4 : DevRef τ sig) := by after_results_simp
theorem arg5_eq (V : Valuation τ sig (Elt F)) : after ops V (main_arg5 : DevRef τ sig) = V (main_arg5 : DevRef τ sig) := by after_results_simp
theorem arg6_eq (V : Valuation τ sig (Elt F)) : after ops V (main_arg6 : DevRef τ sig) = V (main_arg6 : DevRef τ sig) := by after_results_simp
theorem arg7_eq (V : Valuation τ sig (Elt F)) : after ops V (main_arg7 : DevRef τ sig) = V (main_arg7 : DevRef τ sig) := by after_results_simp
theorem arg8_eq (V : Valuation τ sig (Elt F)) : after ops V (main_arg8 : DevRef τ sig) = V (main_arg8 : DevRef τ sig) := by after_results_simp
theorem arg9_eq (V : Valuation τ sig (Elt F)) : after ops V (main_arg9 : DevRef τ sig) = V (main_arg9 : DevRef τ sig) := by after_results_simp
theorem arg10_eq (V : Valuation τ sig (Elt F)) : after ops V (main_arg10 : DevRef τ sig) = V (main_arg10 : DevRef τ sig) := by after_results_simp
theorem arg11_eq (V : Valuation τ sig (Elt F)) : after ops V (main_arg11 : DevRef τ sig) = V (main_arg11 : DevRef τ sig) := by after_results_simp

/-- On every device, for any float values, from any memory with zero counters: every weakly fair execution of @main
    terminates with the result buffer at Spec's network of the twelve launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
        = Cert.Spec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v74).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.RefRun

end
-- ==== Proof.lean ====
/-
  Three graph-convolution layers and a mean pooling, computed two ways.

  Both programs take node features `x` (50000 × 128), an edge table (2 × 800000 node numbers), a graph number per
  node and three triples (w_rel, b_rel, w_root). A layer sums, into each node's row, the rows of the source nodes of
  the edges that end there (`agg`), and returns `elu (agg · w_rel + b_rel + h · w_root)`; after three layers the node
  rows are averaged per graph. The aggregation and the pooling are the same host operations in both programs. The
  kernel program computes each layer's `elu (…)` on a grid of 25 row blocks of 2000 rows, the two products as
  matrix products into zero accumulators on operands cut to bf16 — which on the extended reals is no change —, and
  `elu z` as `z` where `z > 0` and `exp z - 1` elsewhere; the reference computes it on whole arrays with `expm1`,
  which on the extended reals is `exp z - 1`. Entry by entry both are
  `elu (∑ₖ agg i k · w_rel k j + b_rel j + ∑ₖ h i k · w_root k j)` with the sums taken in the same order, so no law
  beyond `1 · y = y` is needed and the finiteness of the inputs is never used.

  The frames of the two kernel programs are their segment chains run from the launch memory; the reference's is
  its list of host operations run in order. The idealization rewrote nothing, so its conjunct is `True`.
-/
import proofs.«119849_j55052890800550_1_alg».proof.Defs
import proofs.«119849_j55052890800550_1_alg».proof.Proof.Gen.Kernel
import proofs.«119849_j55052890800550_1_alg».proof.Proof.Gen.KernelIdeal
import proofs.«119849_j55052890800550_1_alg».proof.Proof.Gen.ReferenceIdeal
import proofs.«119849_j55052890800550_1_alg».proof.Proof.Gen.Pre_finite_inputs
import proofs.«119849_j55052890800550_1_alg».proof.Proof.FrameK
import proofs.«119849_j55052890800550_1_alg».proof.Proof.FrameKI
import proofs.«119849_j55052890800550_1_alg».proof.Proof.KRun
import proofs.«119849_j55052890800550_1_alg».proof.Proof.KValue
import proofs.«119849_j55052890800550_1_alg».proof.Proof.Entry
import proofs.«119849_j55052890800550_1_alg».proof.Proof.Blocks
import proofs.«119849_j55052890800550_1_alg».proof.Proof.RefRun
import Idealize.ShloMosaic.Adequacy
import Idealize.ShloMosaic.Init

noncomputable section

namespace Cert.Proof

open Idealize.ShloMosaic Idealize.ShloMosaic.TcCoe Idealize.SL.Sem

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

open Cert.KernelIdeal Cert.KernelIdeal.Gen in
/-- The kernel program's result buffer ends at the network of the argument arrays: each grid's output is one layer
    of what the grid before it left (the blocks' closed form, the payload entry by entry, the layer entry by entry). -/
theorem kernel_value (m : (ℓ : Loc nD τ sig) → Buf (Elt Ideal) ℓ) (ρ : Dev nD → PrngReg) (c : Dev nD) :
    W7 m ρ c (Proc.devRef .tc main_v51)
      = Cert.Spec.out (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) :=
  Cert.KernelIdeal.KValue.result_eq m ρ c
    (Cert.KernelIdeal.KValue.layer1_out m ρ c (Cert.KernelIdeal.Blocks.final0_of Cert.Entry.pay0_apply (V1 m ρ) c) Cert.Entry.layer1_eq)
    (Cert.KernelIdeal.KValue.layer2_out m ρ c (Cert.KernelIdeal.Blocks.final1_of Cert.Entry.pay1_apply (V3 m ρ) c) Cert.Entry.layer2_eq)
    (Cert.KernelIdeal.KValue.layer3_out m ρ c (Cert.KernelIdeal.Blocks.final2_of Cert.Entry.pay2_apply (V5 m ρ) c) Cert.Entry.layer3_eq)

/-- From memories that agree on the arguments both programs end with the network of the arguments in their
    result buffers. -/
theorem algebraic : Cert.algebraic_KernelIdeal_ReferenceIdeal := by
  intro m ρ m' ρ' _ hagree
  refine ⟨fun c => Cert.Spec.out (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)), ?_, ?_⟩
  · exact (θ_run Cert.KernelIdeal.defs _ _).mono (fun _ h c => ⟨(h c).1.trans (kernel_value m ρ c), (h c).2⟩)
      (Cert.KernelIdeal.KRun.run_main m ρ)
  · refine (θ_run Cert.ReferenceIdeal.defs _ _).mono (fun _ h c => ⟨?_, (h c).2⟩)
      (Cert.ReferenceIdeal.RefRun.run (F := Ideal) m' ρ')
    obtain ⟨e0, e1, e2, e3, e4, e5, e6, e7, e8, e9, e10, e11⟩ := hagree c
    rw [(h c).1, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
